-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S100000x128 .f32) (main_arg3 : FVec F S100000x128 .f32) (main_arg4 : FVec F S128x128 .f32) (main_arg5 : FVec F S128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000x128 .f32 := Host.absf main_arg3
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩

abbrev nBuf : Space → Nat
  | .hbm => 87
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000x128, .f32⟩
  | .hbm, ⟨3, _⟩ => ⟨S100000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S1700000x1, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x128, .f32⟩
  | .hbm, ⟨79, _⟩ => ⟨S1700000x128, .f32⟩
  | .hbm, ⟨80, _⟩ => ⟨S1700000x128, .f32⟩
  | .hbm, ⟨81, _⟩ => ⟨S_, .f32⟩
  | .hbm, ⟨82, _⟩ => ⟨S100000x128, .f32⟩
  | .hbm, ⟨83, _⟩ => ⟨S1700000x1, .i32⟩
  | .hbm, ⟨84, _⟩ => ⟨S100000x128, .f32⟩
  | .hbm, ⟨85, _⟩ => ⟨S1x128, .f32⟩
  | .hbm, ⟨86, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v59) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v61) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 94
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000x128, .f32⟩
  | .hbm, ⟨3, _⟩ => ⟨S100000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S1700000x1, .f32⟩
  | .hbm, ⟨52, _⟩ => ⟨S128x128, .f32⟩
  | .hbm, ⟨53, _⟩ => ⟨S100000x128, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x128, .f32⟩
  | .hbm, ⟨63, _⟩ => ⟨S1700000x128, .f32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S128x128, .f32⟩
  | .hbm, ⟨74, _⟩ => ⟨S100000x128, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x128, .f32⟩
  | .hbm, ⟨84, _⟩ => ⟨S1700000x128, .f32⟩
  | .hbm, ⟨85, _⟩ => ⟨S1700000x128, .f32⟩
  | .hbm, ⟨86, _⟩ => ⟨S_, .f32⟩
  | .hbm, ⟨87, _⟩ => ⟨S100000x128, .f32⟩
  | .hbm, ⟨88, _⟩ => ⟨S1700000x1, .i32⟩
  | .hbm, ⟨89, _⟩ => ⟨S100000x128, .f32⟩
  | .hbm, ⟨90, _⟩ => ⟨S1x128, .f32⟩
  | .hbm, ⟨91, _⟩ => ⟨S100000x128, .f32⟩
  | .hbm, ⟨92, _⟩ => ⟨S100000x128, .f32⟩
  | .hbm, ⟨93, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_10 : Ref sig .tc := ⟨.hbm, 75, rfl⟩
abbrev main_v53 : Ref sig .tc := ⟨.hbm, 76, rfl⟩
abbrev main_v54 : Ref sig .tc := ⟨.hbm, 77, rfl⟩
abbrev main_c_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S128x128_S128x128_1_0 : S128x128.Transposes [1, 0] S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
/-
  The idealized kernel's run with its result array named.

  @main is eight segments: three stretches of host operations, the first matrix product's region, a stretch, the
  fused add-and-product region, a stretch, and the final add region.  The buffer contents at the segment boundaries
  are a fold from the launch memory (`W0` … `W8`).  Every weakly fair execution terminates with every unscoped buffer
  at the last boundary's contents; read at the result buffer this names the result array as `W8` there, and read at
  the eight arguments it gives them back as launched.
-/
import proofs.«144888_j21904333210049_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the arguments as launched. -/
theorem run_named : θ_run defs (onTc (τ := τ) (main (F := F))) ⟨m, fun _ => 0, ρ⟩ (fun r => ∀ c : Dev nD,
      r.2.mem ((c.tc : Thread nD τ).loc main_v61) = W8 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v61 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Hand

end
-- ==== Proof.Spec.lean ====
/-
  The two-layer graph convolution as one function of the argument arrays.

  Nodes are numbered 0 … 99999 and carry 128 features.  The edge list holds 1 600 000 pairs (source, destination); one
  self-loop per node is appended, giving 1 700 000 pairs.  The degree of a node is the number of pairs that end at it;
  a pair's weight is the product of the inverse square roots of its endpoints' degrees (zero where the degree is not
  positive).  One aggregation sends a node-feature matrix H to the matrix whose row v is the sum, over the pairs (u, v)
  ending at v, of the pair's weight times row u of H.  The network is

      out = A (((A (x · W1ᵀ) + b1) + p_first) · W2ᵀ) + b2 + p_last,

  with A the aggregation, b1 and b2 added to every row, and the two perturbations added entry by entry.  Every
  function below is stated over whole arrays with the host's own operations, so that both programs' host stretches meet
  it by unfolding; negative indices wrap once by the node count, as the host's indexing does before it gathers.
-/
import proofs.«144888_j21904333210049_1_alg».proof.Proof.Gen.KernelIdeal
import Idealize.ShloMosaic.PureOps.Ideal

noncomputable section

namespace Cert.KernelIdeal.Spec

open Cert.KernelIdeal Cert.KernelIdeal.Gen Idealize.ShloMosaic

/-- The pairs' sources: the edge list's first row, then every node once. -/
def srcIdx (ei : IVec S2x1600000 32) : IVec S1700000 32 :=
  concatenate S1700000 0
    [⟨S1600000, shapeCast S1600000 (extractStridedSlice S1x1600000 ![0, 0] ei slices_S2x1600000_S1x1600000_0_0) shapeCasts_S1x1600000_S1600000⟩,
     ⟨S100000, iotaInDim S100000 32 0⟩] concatenates_S1600000_S100000_S1700000_d0

/-- The pairs' destinations: the edge list's second row, then every node once. -/
def dstIdx (ei : IVec S2x1600000 32) : IVec S1700000 32 :=
  concatenate S1700000 0
    [⟨S1600000, shapeCast S1600000 (extractStridedSlice S1x1600000 ![1, 0] ei slices_S2x1600000_S1x1600000_1_0) shapeCasts_S1x1600000_S1600000⟩,
     ⟨S100000, iotaInDim S100000 32 0⟩] concatenates_S1600000_S100000_S1700000_d0

/-- A node's degree: one added per pair ending at it. -/
def degree (dst : IVec S1700000 32) : FVec Ideal S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 dst)
    (broadcastInDim S1700000 ![] bcast_S_S1700000 (constant S_ .f32 0x3F800000#32))

/-- Is the degree positive, node by node. -/
def degPos (deg : FVec Ideal S100000 .f32) : IVec S100000 1 :=
  cmpf .ogt deg (broadcastInDim S100000 ![] bcast_S_S100000 (constant S_ .f32 0x00000000#32))

/-- One over the square root of the degree, node by node. -/
def degRsqrt (deg : FVec Ideal S100000 .f32) : FVec Ideal S100000 .f32 :=
  Host.divf (broadcastInDim S100000 ![] bcast_S_S100000 (constant S_ .f32 0x3F800000#32)) (Host.sqrt deg)

/-- The inverse square root of the degree where the degree is positive, zero elsewhere. -/
def dinvOf (pos : IVec S100000 1) (rs : FVec Ideal S100000 .f32) (z : FVec Ideal S_ .f32) : FVec Ideal S100000 .f32 :=
  select pos rs (broadcastInDim S100000 ![] bcast_S_S100000 (id z))

/-- An index list made a column, a negative index wrapped once by the node count. -/
def wrapIdx (idx : IVec S1700000 32) : IVec S1700000x1 32 :=
  broadcastInDim S1700000x1 ![0] bcast_S1700000_S1700000x1_0
    (select (cmpi .slt idx (broadcastInDim S1700000 ![] bcast_S_S1700000 (constantI S_ 32 0#32)))
      (addi idx (broadcastInDim S1700000 ![] bcast_S_S1700000 (constantI S_ 32 100000#32))) idx)

/-- A pair's weight: the product of its two endpoints' inverse square-root degrees, as a column. -/
def edgeNorm (dinv : FVec Ideal S100000 .f32) (src dst : IVec S1700000 32) : FVec Ideal S1700000x1 .f32 :=
  broadcastInDim S1700000x1 ![0] bcast_S1700000_S1700000x1_0
    (mulf (Host.gather gather_S100000_S1700000x1_S1700000_n_0_n_n_0_1_1 dinv (wrapIdx src))
      (Host.gather gather_S100000_S1700000x1_S1700000_n_0_n_n_0_1_1 dinv (wrapIdx dst)))

/-- One aggregation: row v of the result is the sum over the pairs (u, v) of the pair's weight times row u of `h`. -/
def aggregate (h : FVec Ideal S100000x128 .f32) (src dst : IVec S1700000 32) (nrm : FVec Ideal S1700000x1 .f32) :
    FVec Ideal S100000x128 .f32 :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 dst)
    (mulf (Host.gather gather_S100000x128_S1700000x1_S1700000x128_1_0_n_n_0_1_1128 h (wrapIdx src))
      (broadcastInDim S1700000x128 ![0, 1] bcast_S1700000x1_S1700000x128_0_1 nrm))

/-- The product of a node-feature matrix with a 128 × 128 matrix contracts the second axis with the first. -/
def dotN : DotDims S100000x128 S128x128 S100000x128 := ⟨[1], [0], [0], [1], [], [], by decide⟩

theorem trW : S128x128.Transposes [1, 0] S128x128 := by decide

theorem bcRow : S1x128.BroadcastsInDim S100000x128 (![0, 1] : Fin 2 → Fin S100000x128.rank) := by decide

/-- `x · wᵀ`: entry (n, j) is the sum over k of `x (n, k) * w (j, k)`. -/
def linT (x : FVec Ideal S100000x128 .f32) (w : FVec Ideal S128x128 .f32) : FVec Ideal S100000x128 .f32 :=
  Host.dotGeneral dotN none x (transpose S128x128 [1, 0] w trW)

/-- A bias vector as a one-row matrix. -/
def biasRow (b : FVec Ideal S128 .f32) : FVec Ideal S1x128 .f32 := shapeCast S1x128 b shapeCasts_S128_S1x128

/-- `(a + row) + p`: the row added to every row of `a`, then `p` entry by entry. -/
def addBias (a : FVec Ideal S100000x128 .f32) (row : FVec Ideal S1x128 .f32) (p : FVec Ideal S100000x128 .f32) :
    FVec Ideal S100000x128 .f32 :=
  addf (addf a (broadcastInDim S100000x128 ![0, 1] bcRow row)) p

/-- The inverse square-root degrees as a function of the edge list. -/
def dinv (ei : IVec S2x1600000 32) : FVec Ideal S100000 .f32 :=
  dinvOf (degPos (degree (dstIdx ei))) (degRsqrt (degree (dstIdx ei))) (constant S_ .f32 0x00000000#32)

/-- The pairs' weights as a function of the edge list. -/
def nrm (ei : IVec S2x1600000 32) : FVec Ideal S1700000x1 .f32 := edgeNorm (dinv ei) (srcIdx ei) (dstIdx ei)

/-- One aggregation over the edge list's pairs. -/
def layer (h : FVec Ideal S100000x128 .f32) (ei : IVec S2x1600000 32) : FVec Ideal S100000x128 .f32 :=
  aggregate h (srcIdx ei) (dstIdx ei) (nrm ei)

/-- The network's output: `A (((A (x · W1ᵀ) + b1) + p_first) · W2ᵀ) + b2 + p_last`. -/
def out (x : FVec Ideal S100000x128 .f32) (ei : IVec S2x1600000 32) (pf pl : FVec Ideal S100000x128 .f32)
    (w1 : FVec Ideal S128x128 .f32) (b1 : FVec Ideal S128 .f32) (w2 : FVec Ideal S128x128 .f32) (b2 : FVec Ideal S128 .f32) :
    FVec Ideal S100000x128 .f32 :=
  addBias (layer (linT (addBias (layer (linT x w1) ei) (biasRow b1) pf) w2) ei) (biasRow b2) pl

end Cert.KernelIdeal.Spec

end
-- ==== Proof.LibHostDot.lean ====
/-
  A host matrix product read at an index.

  The host's `dot_general` of an m×k matrix by a k×n matrix, contracting the first operand's second axis with the
  second operand's first axis and with no batch axis, read at row `a` and column `b` at the exact instance, is the sum
  over the contracted coordinate `c` of the products of the entries `(a, c)` and `(c, b)`.  Stated for the record
  spelt out with its well-formedness evidence as a variable, which is the shape a printed program's product records
  take once unfolded.
-/
import Idealize.ShloMosaic.Lib.ValueIdx
import Idealize.ShloMosaic.Lib.Pipeline.Value
import Idealize.ShloMosaic.PureOps.Ideal.Laws

noncomputable section

namespace Cert.LibHostDot

open Idealize.ShloMosaic Idealize.ShloMosaic.ValueIdx

/-- The host product of an m×k by a k×n matrix at `(a, b)` is `∑ c, A (a, c) * B (c, b)`. -/
theorem hostDot_nn_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibHostDot

end
-- ==== Proof.SpecAt.lean ====
/-
  The specification's two dense stages read at an entry.

  `x · wᵀ` at (n, j) is the sum over k of `x (n, k) * w (j, k)`: the host's product contracts the features' second axis
  with the transposed weights' first axis, and the transposed weights at (k, j) are the weights at (j, k).
  `(a + row) + p` at (n, j) is `(a (n, j) + row (0, j)) + p (n, j)`: the one-row matrix is repeated down the rows.
-/
import proofs.«144888_j21904333210049_1_alg».proof.Proof.Spec
import proofs.«144888_j21904333210049_1_alg».proof.Proof.LibHostDot
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.ValueIdx

/-- The zero offsets of a whole-block access. -/
theorem hz : (![0, 0] : Fin 2 → Nat) = fun _ => 0 := funext fun a => by fin_cases a <;> rfl

/-- The transposed weight matrix at (c, q) is the weight matrix at (q, c). -/
theorem transposeW_apply (w : S128x128.Idx → EReal) (h : S128x128.Transposes [1, 0] S128x128) (c q : Fin 128) :
    transpose S128x128 [1, 0] w h (ix2 c q) = w (ix2 q c) :=
  transpose_apply [1, 0] w h (ix2 c q) (ix2 q c) (fun b => by
    match b with
    | ⟨0, _⟩ => rfl
    | ⟨1, _⟩ => rfl)

/-- `x · wᵀ` at entry (n, j): the sum over k of `x (n, k) * w (j, k)`. -/
theorem linT_apply (x : FVec Ideal S100000x128 .f32) (w : FVec Ideal S128x128 .f32) (n : Fin 100000) (j : Fin 128) :
    Spec.linT x w (ix2 n j) = ∑ k : Fin 128, x (ix2 n k) * w (ix2 j k) := by
  unfold Spec.linT
  refine (Cert.LibHostDot.hostDot_nn_apply (by decide) none x _ n j).trans ?_
  refine Finset.sum_congr rfl fun k _ => ?_
  rw [transposeW_apply]

/-- `(a + row) + p` at entry (n, j): `(a (n, j) + row (0, j)) + p (n, j)`. -/
theorem addBias_apply (a p : FVec Ideal S100000x128 .f32) (row : FVec Ideal S1x128 .f32) (n : Fin 100000) (j : Fin 128) :
    Spec.addBias a row p (ix2 n j) = (a (ix2 n j) + row (ix2 0 j)) + p (ix2 n j) := by
  unfold Spec.addBias
  show (a (ix2 n j) + broadcastInDim S100000x128 ![0, 1] Spec.bcRow row (ix2 n j)) + p (ix2 n j) = _
  rw [broadcastInDim_apply ![0, 1] Spec.bcRow row (ix2 n j) (ix2 0 j) (fun a => by
    match a with
    | ⟨0, _⟩ => rfl
    | ⟨1, _⟩ => rfl)]

end Cert.KernelIdeal.Hand

end
-- ==== Proof.LibMatmulZero.lean ====
/-
  A kernel matrix product into a zero accumulator, read at an index.

  The matrix unit's product of an m×k block by a k×n block, contracting the first operand's second axis with the
  second operand's first axis and with no batch axis, accumulated into the all-zero block, read at row `a` and column
  `b` at the exact instance, is the sum over the contracted coordinate `c` of the products of the entries `(a, c)`
  and `(c, b)`: the zero it starts from is the additive unit of the extended reals, and no rounding or chunk order is
  left.  Stated for the record spelt out with its well-formedness evidence as a variable, which is the shape a printed
  program's product records take once unfolded.
-/
import Idealize.ShloMosaic.Lib.ValueIdx
import Idealize.ShloMosaic.Lib.Pipeline.Value
import Idealize.ShloMosaic.PureOps.Ideal.Laws

noncomputable section

namespace Cert.LibMatmulZero

open Idealize.ShloMosaic Idealize.ShloMosaic.ValueIdx

/-- The product of an m×k by a k×n block into the zero block, at `(a, b)`, is `∑ c, A (a, c) * B (c, b)`. -/
theorem matmulZero_nn_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B (constant (F := Ideal) ⟨2, ![m, n]⟩ .f32 0x00000000#32) (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulZero

end
-- ==== Proof.Region0.lean ====
/-
  The first region: the node features times the transposed first weight matrix.

  The grid has 20 points; point t stages rows 5000 t … 5000 t + 4999 of the features and the whole 128 × 128 weight
  matrix; the body transposes the weights and multiplies, starting from zero, so entry (p, q) of its block is the sum over
  k of feature (5000 t + p, k) times weight (q, k) — a change of float format is the identity on the extended reals —;
  the block is written back to the same rows of the output.  The 20 row blocks tile the output, so the output array ends
  as `x · wᵀ` of the two arrays the region finds.
-/
import proofs.«144888_j21904333210049_1_alg».proof.Proof.Gen.KernelIdeal.Frame
import proofs.«144888_j21904333210049_1_alg».proof.Proof.SpecAt
import proofs.«144888_j21904333210049_1_alg».proof.Proof.LibMatmulZero
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's arithmetic at entry (p, q) of the block: the sum over k of the staged feature (p, k) times the staged
    weight (q, k). -/
theorem pay0_apply (x0 : Vec Ideal S5000x128 .f32) (x1 : Vec Ideal S128x128 .f32) (p : Fin 5000) (q : Fin 128) :
    k0_pay1 x0 x1 (ix2 p q) = ∑ k : Fin 128, x0 (ix2 p k) * x1 (ix2 q k) := by
  unfold k0_pay1
  refine (Cert.LibMatmulZero.matmulZero_nn_apply dot_S5000x128_S128x128_S5000x128_1_0_0_1_n_n_wf none _ _ p q).trans ?_
  refine Finset.sum_congr rfl fun k _ => ?_
  rw [transposeW_apply]
  rfl

/-- The index maps over the 20 points: the row-blocked windows sit at block (t, 0), the weights at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The features' block at point t is their rows 5000 t … 5000 t + 4999. -/
theorem blk0_0_apply (c : Dev nD) (t : Fin cfg0.N) (y : S5000x128.Idx) (k : S100000x128.Idx)
    (hk0 : (k 0).val = 5000 * t.val + (y 0).val) (hk1 : (k 1).val = (y 1).val) :
    (iblk0 V c 0 t : Vec Ideal S5000x128 .f32) y = (V c main_arg0 : S100000x128.Idx → Elt Ideal .f32) k := by
  obtain ⟨e0, e1, -⟩ := idx0 t
  unfold iblk0
  rw [View.read_apply]
  show V c main_arg0 _ = V c main_arg0 _
  refine congrArg (V c main_arg0) ?_
  funext a; apply Fin.ext
  match a with
  | ⟨0, _⟩ => show win0_0.index t (0 : Fin 2) * 5000 + 1 * (y 0).val = (k 0).val; rw [e0, hk0]; omega
  | ⟨1, _⟩ => show win0_0.index t (1 : Fin 2) * 128 + 1 * (y 1).val = (k 1).val; rw [e1, hk1]; omega

/-- The weights' block at every point is the whole matrix. -/
theorem blk0_1_apply (c : Dev nD) (t : Fin cfg0.N) (y : S128x128.Idx) :
    (iblk0 V c 1 t : Vec Ideal S128x128 .f32) y = (V c main_arg4 : S128x128.Idx → Elt Ideal .f32) y := by
  obtain ⟨-, -, e0, e1, -⟩ := idx0 t
  unfold iblk0
  rw [View.read_apply]
  show V c main_arg4 _ = V c main_arg4 _
  refine congrArg (V c main_arg4) ?_
  funext a; apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- One entry of what a point computes, over any staged blocks that are the stated rows of a feature array and the
    whole of a weight array. -/
theorem point0 (x0 : Vec Ideal S5000x128 .f32) (x1 : Vec Ideal S128x128 .f32)
    (X : FVec Ideal S100000x128 .f32) (W : FVec Ideal S128x128 .f32)
    (y : S5000x128.Idx) (k : S100000x128.Idx) (p : Fin 5000) (q : Fin 128) (n : Fin 100000)
    (hy : y = ix2 p q) (hk : k = ix2 n q)
    (h0 : ∀ j : Fin 128, x0 (ix2 p j) = X (ix2 n j)) (h1 : ∀ z, x1 z = W z) :
    k0_pay1 x0 x1 y = Spec.linT X W k := by
  subst hy hk
  rw [linT_apply, pay0_apply]
  exact Finset.sum_congr rfl fun j _ => by rw [h0 j, h1]

/-- Entry y of point t's block of the output sits at row 5000 t + y₀ and column y₁ of the array. -/
theorem emb0_2 (t : Fin cfg0.N) (y : S5000x128.Idx) (n : Fin 100000) (hn : n.val = 5000 * t.val + (y 0).val) :
    (((cfg0.win 2).blk t).view.emb y : S100000x128.Idx) = ix2 n (y 1) := by
  obtain ⟨-, -, -, -, e0, e1⟩ := idx0 t
  funext a; apply Fin.ext
  match a with
  | ⟨0, _⟩ => show win0_2.index t (0 : Fin 2) * 5000 + 1 * (y 0).val = n.val; rw [e0, hn]; omega
  | ⟨1, _⟩ => show win0_2.index t (1 : Fin 2) * 128 + 1 * (y 1).val = (y 1).val; rw [e1]; omega

set_option maxHeartbeats 1000000 in
/-- What point t writes back is block t of `x · wᵀ` of the arrays the region finds. -/
theorem flushed0_eq (c : Dev nD) (t : Fin cfg0.N) :
    (dat0 V c).flushed 2 t = ((cfg0.win 2).blk t).view.read (Elt Ideal) (Spec.linT (V c main_arg0) (V c main_arg4)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  have hN : cfg0.N = 20 := N_0
  funext j
  show k0_pay1 (iblk0 V c 0 t) (iblk0 V c 1 t) j
    = Spec.linT (V c main_arg0) (V c main_arg4) (((cfg0.win 2).blk t).view.emb j)
  have hj0 : (j 0).val < 5000 := (j 0).isLt
  have hn : 5000 * t.val + (j 0).val < 100000 := by have := t.isLt; omega
  have hemb := emb0_2 t j ⟨5000 * t.val + (j 0).val, hn⟩ rfl
  exact point0 (iblk0 V c 0 t) (iblk0 V c 1 t) (V c main_arg0) (V c main_arg4) j
    (((cfg0.win 2).blk t).view.emb j) (j 0) (j 1) ⟨5000 * t.val + (j 0).val, hn⟩ (eq_ix2 (n0 := 5000) (n1 := 128) j) hemb
    (fun i => blk0_0_apply V c t (ix2 (j 0) i) (ix2 ⟨5000 * t.val + (j 0).val, hn⟩ i) rfl rfl)
    (fun z => blk0_1_apply V c t z)

/-- An index of the output is in point t's block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v33).slice (win0_2.rect t)).set ↔ _
  rw [View.set_slice_whole, Rect.mem_set_unit]
  exact Iff.rfl

/-- Every row of the output lies in the block of the point numbered by the row divided by 5000. -/
theorem cover0 (i : S100000x128.Idx) : ∃ t : Fin cfg0.N, (cfg0.win 2).flush t = true ∧ i ∈ ((cfg0.win 2).blk t).view.set := by
  have hN : cfg0.N = 20 := N_0
  have hi0 : (i 0).val < 100000 := (i 0).isLt
  have hi1 : (i 1).val < 128 := (i 1).isLt
  let t : Fin cfg0.N := ⟨(i 0).val / 5000, by rw [hN]; omega⟩
  refine ⟨t, flush0_2 t, ?_⟩
  rw [mem_blk0]
  obtain ⟨-, -, -, -, e0, e1⟩ := idx0 t
  have ht : t.val = (i 0).val / 5000 := rfl
  intro a
  match a with
  | ⟨0, _⟩ => show win0_2.index t (0 : Fin 2) * 5000 ≤ (i 0).val ∧ (i 0).val < win0_2.index t (0 : Fin 2) * 5000 + 5000; rw [e0, ht]; omega
  | ⟨1, _⟩ => show win0_2.index t (1 : Fin 2) * 128 ≤ (i 1).val ∧ (i 1).val < win0_2.index t (1 : Fin 2) * 128 + 128; rw [e1]; omega

/-- The output array after the region: `x · wᵀ` of the two arrays the region finds. -/
theorem final0 (c : Dev nD) :
    (dat0 V c).arrAt 2 cfg0.N = Spec.linT (V c main_arg0) (V c main_arg4) :=
  (dat0 V c).arrAt_eq_of_cover 2 _ (fun t _ => flushed0_eq V c t) cover0

end Cert.KernelIdeal.Hand

end
-- ==== Proof.Region1.lean ====
/-
  The middle region: the bias row and the perturbation added to the aggregated features, the sum times the transposed
  second weight matrix.

  The grid has 20 points; point t stages rows 5000 t … 5000 t + 4999 of the aggregated matrix and of the perturbation,
  the whole one-row bias and the whole 128 × 128 weight matrix; the body adds the bias row to every staged row, then the
  perturbation entry by entry, transposes the weights and multiplies, starting from zero: entry (p, q) of its block is
  the sum over k of ((a (5000 t + p, k) + row (0, k)) + pert (5000 t + p, k)) times weight (q, k).  The block is written
  back to the same rows of the output; the 20 row blocks tile it, so the output array ends as `((a + row) + pert) · wᵀ`
  of the four arrays the region finds.
-/
import proofs.«144888_j21904333210049_1_alg».proof.Proof.Gen.KernelIdeal.Frame
import proofs.«144888_j21904333210049_1_alg».proof.Proof.SpecAt
import proofs.«144888_j21904333210049_1_alg».proof.Proof.LibMatmulZero
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's arithmetic at entry (p, q) of the block. -/
theorem pay1_apply (x0 x2 : Vec Ideal S5000x128 .f32) (x1 : Vec Ideal S1x128 .f32) (x3 : Vec Ideal S128x128 .f32)
    (p : Fin 5000) (q : Fin 128) :
    k1_pay1 x0 x1 x2 x3 (ix2 p q) = ∑ k : Fin 128, ((x0 (ix2 p k) + x1 (ix2 0 k)) + x2 (ix2 p k)) * x3 (ix2 q k) := by
  unfold k1_pay1
  simp only [shapeCast_self]
  refine (Cert.LibMatmulZero.matmulZero_nn_apply dot_S5000x128_S128x128_S5000x128_1_0_0_1_n_n_wf none _ _ p q).trans ?_
  refine Finset.sum_congr rfl fun k _ => ?_
  rw [transposeW_apply]
  show ((x0 (ix2 p k) + broadcastTo S5000x128 x1 broadcasts_S1x128_S5000x128 (ix2 p k)) + x2 (ix2 p k)) * x3 (ix2 q k) = _
  rw [broadcastTo_apply x1 broadcasts_S1x128_S5000x128 (ix2 p k) (ix2 0 k) (fun a => by
    match a with
    | ⟨0, _⟩ => rfl
    | ⟨1, _⟩ => rfl)]

/-- The index maps over the 20 points: the row-blocked windows sit at block (t, 0), the bias row and the weights at
    block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The aggregated matrix's block at point t is its rows 5000 t … 5000 t + 4999. -/
theorem blk1_0_apply (c : Dev nD) (t : Fin cfg1.N) (y : S5000x128.Idx) (k : S100000x128.Idx)
    (hk0 : (k 0).val = 5000 * t.val + (y 0).val) (hk1 : (k 1).val = (y 1).val) :
    (iblk1 V c 0 t : Vec Ideal S5000x128 .f32) y = (V c main_v45 : S100000x128.Idx → Elt Ideal .f32) k := by
  obtain ⟨e0, e1, -⟩ := idx1 t
  unfold iblk1
  rw [View.read_apply]
  show V c main_v45 _ = V c main_v45 _
  refine congrArg (V c main_v45) ?_
  funext a; apply Fin.ext
  match a with
  | ⟨0, _⟩ => show win1_0.index t (0 : Fin 2) * 5000 + 1 * (y 0).val = (k 0).val; rw [e0, hk0]; omega
  | ⟨1, _⟩ => show win1_0.index t (1 : Fin 2) * 128 + 1 * (y 1).val = (k 1).val; rw [e1, hk1]; omega

/-- The bias row's block at every point is the whole row. -/
theorem blk1_1_apply (c : Dev nD) (t : Fin cfg1.N) (y : S1x128.Idx) :
    (iblk1 V c 1 t : Vec Ideal S1x128 .f32) y = (V c main_v46 : S1x128.Idx → Elt Ideal .f32) y := by
  obtain ⟨-, -, e0, e1, -⟩ := idx1 t
  unfold iblk1
  rw [View.read_apply]
  show V c main_v46 _ = V c main_v46 _
  refine congrArg (V c main_v46) ?_
  funext a; apply Fin.ext
  match a with
  | ⟨0, _⟩ => show win1_1.index t (0 : Fin 2) * 1 + 1 * (y 0).val = (y 0).val; rw [e0]; omega
  | ⟨1, _⟩ => show win1_1.index t (1 : Fin 2) * 128 + 1 * (y 1).val = (y 1).val; rw [e1]; omega

/-- The perturbation's block at point t is its rows 5000 t … 5000 t + 4999. -/
theorem blk1_2_apply (c : Dev nD) (t : Fin cfg1.N) (y : S5000x128.Idx) (k : S100000x128.Idx)
    (hk0 : (k 0).val = 5000 * t.val + (y 0).val) (hk1 : (k 1).val = (y 1).val) :
    (iblk1 V c 2 t : Vec Ideal S5000x128 .f32) y = (V c main_arg2 : S100000x128.Idx → Elt Ideal .f32) k := by
  obtain ⟨-, -, -, -, e0, e1, -⟩ := idx1 t
  unfold iblk1
  rw [View.read_apply]
  show V c main_arg2 _ = V c main_arg2 _
  refine congrArg (V c main_arg2) ?_
  funext a; apply Fin.ext
  match a with
  | ⟨0, _⟩ => show win1_2.index t (0 : Fin 2) * 5000 + 1 * (y 0).val = (k 0).val; rw [e0, hk0]; omega
  | ⟨1, _⟩ => show win1_2.index t (1 : Fin 2) * 128 + 1 * (y 1).val = (k 1).val; rw [e1, hk1]; omega

/-- The weights' block at every point is the whole matrix. -/
theorem blk1_3_apply (c : Dev nD) (t : Fin cfg1.N) (y : S128x128.Idx) :
    (iblk1 V c 3 t : Vec Ideal S128x128 .f32) y = (V c main_arg6 : S128x128.Idx → Elt Ideal .f32) y := by
  obtain ⟨-, -, -, -, -, -, e0, e1, -⟩ := idx1 t
  unfold iblk1
  rw [View.read_apply]
  show V c main_arg6 _ = V c main_arg6 _
  refine congrArg (V c main_arg6) ?_
  funext a; apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- One entry of what a point computes, over any staged blocks that are the stated rows of two arrays, a whole bias
    row and a whole weight array. -/
theorem point1 (x0 x2 : Vec Ideal S5000x128 .f32) (x1 : Vec Ideal S1x128 .f32) (x3 : Vec Ideal S128x128 .f32)
    (A P : FVec Ideal S100000x128 .f32) (B : FVec Ideal S1x128 .f32) (W : FVec Ideal S128x128 .f32)
    (y : S5000x128.Idx) (k : S100000x128.Idx) (p : Fin 5000) (q : Fin 128) (n : Fin 100000)
    (hy : y = ix2 p q) (hk : k = ix2 n q)
    (h0 : ∀ j : Fin 128, x0 (ix2 p j) = A (ix2 n j)) (h1 : ∀ z, x1 z = B z)
    (h2 : ∀ j : Fin 128, x2 (ix2 p j) = P (ix2 n j)) (h3 : ∀ z, x3 z = W z) :
    k1_pay1 x0 x1 x2 x3 y = Spec.linT (Spec.addBias A B P) W k := by
  subst hy hk
  rw [linT_apply, pay1_apply]
  exact Finset.sum_congr rfl fun j _ => by rw [addBias_apply, h0 j, h1, h2 j, h3]

/-- Entry y of point t's block of the output sits at row 5000 t + y₀ and column y₁ of the array. -/
theorem emb1_4 (t : Fin cfg1.N) (y : S5000x128.Idx) (n : Fin 100000) (hn : n.val = 5000 * t.val + (y 0).val) :
    (((cfg1.win 4).blk t).view.emb y : S100000x128.Idx) = ix2 n (y 1) := by
  obtain ⟨-, -, -, -, -, -, -, -, e0, e1⟩ := idx1 t
  funext a; apply Fin.ext
  match a with
  | ⟨0, _⟩ => show win1_4.index t (0 : Fin 2) * 5000 + 1 * (y 0).val = n.val; rw [e0, hn]; omega
  | ⟨1, _⟩ => show win1_4.index t (1 : Fin 2) * 128 + 1 * (y 1).val = (y 1).val; rw [e1]; omega

set_option maxHeartbeats 1000000 in
/-- What point t writes back is block t of `((a + row) + pert) · wᵀ` of the arrays the region finds. -/
theorem flushed1_eq (c : Dev nD) (t : Fin cfg1.N) :
    (dat1 V c).flushed 4 t = ((cfg1.win 4).blk t).view.read (Elt Ideal)
      (Spec.linT (Spec.addBias (V c main_v45) (V c main_v46) (V c main_arg2)) (V c main_arg6)) := by
  show (cfg1.win 4).cut (grid1.coords t) ((dat1 V c).after 4 t) = _
  rw [after1_4]
  unfold out1_4
  rw [View.canon_unit_zero hz]
  simp only [View.ld_unit_zero (S := S5000x128) hz, View.ld_unit_zero (S := S1x128) hz, View.ld_unit_zero (S := S128x128) hz]
  have hN : cfg1.N = 20 := N_1
  funext j
  show k1_pay1 (iblk1 V c 0 t) (iblk1 V c 1 t) (iblk1 V c 2 t) (iblk1 V c 3 t) j
    = Spec.linT (Spec.addBias (V c main_v45) (V c main_v46) (V c main_arg2)) (V c main_arg6) (((cfg1.win 4).blk t).view.emb j)
  have hj0 : (j 0).val < 5000 := (j 0).isLt
  have hn : 5000 * t.val + (j 0).val < 100000 := by have := t.isLt; omega
  have hemb := emb1_4 t j ⟨5000 * t.val + (j 0).val, hn⟩ rfl
  exact point1 (iblk1 V c 0 t) (iblk1 V c 2 t) (iblk1 V c 1 t) (iblk1 V c 3 t)
    (V c main_v45) (V c main_arg2) (V c main_v46) (V c main_arg6) j
    (((cfg1.win 4).blk t).view.emb j) (j 0) (j 1) ⟨5000 * t.val + (j 0).val, hn⟩ (eq_ix2 (n0 := 5000) (n1 := 128) j) hemb
    (fun i => blk1_0_apply V c t (ix2 (j 0) i) (ix2 ⟨5000 * t.val + (j 0).val, hn⟩ i) rfl rfl)
    (fun z => blk1_1_apply V c t z)
    (fun i => blk1_2_apply V c t (ix2 (j 0) i) (ix2 ⟨5000 * t.val + (j 0).val, hn⟩ i) rfl rfl)
    (fun z => blk1_3_apply V c t z)

/-- An index of the output is in point t's block iff each coordinate is in the block's range on its axis. -/
theorem mem_blk1 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v47).slice (win1_4.rect t)).set ↔ _
  rw [View.set_slice_whole, Rect.mem_set_unit]
  exact Iff.rfl

/-- Every row of the output lies in the block of the point numbered by the row divided by 5000. -/
theorem cover1 (i : S100000x128.Idx) : ∃ t : Fin cfg1.N, (cfg1.win 4).flush t = true ∧ i ∈ ((cfg1.win 4).blk t).view.set := by
  have hN : cfg1.N = 20 := N_1
  have hi0 : (i 0).val < 100000 := (i 0).isLt
  have hi1 : (i 1).val < 128 := (i 1).isLt
  let t : Fin cfg1.N := ⟨(i 0).val / 5000, by rw [hN]; omega⟩
  refine ⟨t, flush1_4 t, ?_⟩
  rw [mem_blk1]
  obtain ⟨-, -, -, -, -, -, -, -, e0, e1⟩ := idx1 t
  have ht : t.val = (i 0).val / 5000 := rfl
  intro a
  match a with
  | ⟨0, _⟩ => show win1_4.index t (0 : Fin 2) * 5000 ≤ (i 0).val ∧ (i 0).val < win1_4.index t (0 : Fin 2) * 5000 + 5000; rw [e0, ht]; omega
  | ⟨1, _⟩ => show win1_4.index t (1 : Fin 2) * 128 ≤ (i 1).val ∧ (i 1).val < win1_4.index t (1 : Fin 2) * 128 + 128; rw [e1]; omega

/-- The output array after the region: `((a + row) + pert) · wᵀ` of the four arrays the region finds. -/
theorem final1 (c : Dev nD) :
    (dat1 V c).arrAt 4 cfg1.N = Spec.linT (Spec.addBias (V c main_v45) (V c main_v46) (V c main_arg2)) (V c main_arg6) :=
  (dat1 V c).arrAt_eq_of_cover 4 _ (fun t _ => flushed1_eq V c t) cover1

end Cert.KernelIdeal.Hand

end
-- ==== Proof.Region2.lean ====
/-
  The last region: the bias row and the perturbation added to the aggregated features.

  The grid has 20 points; point t stages rows 5000 t … 5000 t + 4999 of the aggregated matrix and of the perturbation,
  and the whole one-row bias; the body adds the bias row to every staged row, then the perturbation entry by entry, and
  the result is written back to the same rows of the output.  The 20 row blocks tile the output, so the output array
  ends as `(a + row) + p` of the three arrays the region finds.
-/
import proofs.«144888_j21904333210049_1_alg».proof.Proof.Gen.KernelIdeal.Frame
import proofs.«144888_j21904333210049_1_alg».proof.Proof.SpecAt
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's arithmetic at entry (p, q) of the block: the aggregated entry plus the bias at column q, plus the
    perturbation's entry. -/
theorem pay2_apply (x0 : Vec Ideal S5000x128 .f32) (x1 : Vec Ideal S1x128 .f32) (x2 : Vec Ideal S5000x128 .f32)
    (p : Fin 5000) (q : Fin 128) :
    k2_pay1 x0 x1 x2 (ix2 p q) = (x0 (ix2 p q) + x1 (ix2 0 q)) + x2 (ix2 p q) := by
  unfold k2_pay1
  simp only [shapeCast_self]
  show (x0 (ix2 p q) + broadcastTo S5000x128 x1 broadcasts_S1x128_S5000x128 (ix2 p q)) + x2 (ix2 p q) = _
  rw [broadcastTo_apply x1 broadcasts_S1x128_S5000x128 (ix2 p q) (ix2 0 q) (fun a => by
    match a with
    | ⟨0, _⟩ => rfl
    | ⟨1, _⟩ => rfl)]

/-- The index maps over the 20 points: the row-blocked windows sit at block (t, 0), the bias row at block (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The aggregated matrix's block at point t is its rows 5000 t … 5000 t + 4999. -/
theorem blk2_0_apply (c : Dev nD) (t : Fin cfg2.N) (y : S5000x128.Idx) (k : S100000x128.Idx)
    (hk0 : (k 0).val = 5000 * t.val + (y 0).val) (hk1 : (k 1).val = (y 1).val) :
    (iblk2 V c 0 t : Vec Ideal S5000x128 .f32) y = (V c main_v59 : S100000x128.Idx → Elt Ideal .f32) k := by
  obtain ⟨e0, e1, -⟩ := idx2 t
  unfold iblk2
  rw [View.read_apply]
  show V c main_v59 _ = V c main_v59 _
  refine congrArg (V c main_v59) ?_
  funext a; apply Fin.ext
  match a with
  | ⟨0, _⟩ => show win2_0.index t (0 : Fin 2) * 5000 + 1 * (y 0).val = (k 0).val; rw [e0, hk0]; omega
  | ⟨1, _⟩ => show win2_0.index t (1 : Fin 2) * 128 + 1 * (y 1).val = (k 1).val; rw [e1, hk1]; omega

/-- The bias row's block at every point is the whole row. -/
theorem blk2_1_apply (c : Dev nD) (t : Fin cfg2.N) (y : S1x128.Idx) :
    (iblk2 V c 1 t : Vec Ideal S1x128 .f32) y = (V c main_v60 : S1x128.Idx → Elt Ideal .f32) y := by
  obtain ⟨-, -, e0, e1, -⟩ := idx2 t
  unfold iblk2
  rw [View.read_apply]
  show V c main_v60 _ = V c main_v60 _
  refine congrArg (V c main_v60) ?_
  funext a; apply Fin.ext
  match a with
  | ⟨0, _⟩ => show win2_1.index t (0 : Fin 2) * 1 + 1 * (y 0).val = (y 0).val; rw [e0]; omega
  | ⟨1, _⟩ => show win2_1.index t (1 : Fin 2) * 128 + 1 * (y 1).val = (y 1).val; rw [e1]; omega

/-- The perturbation's block at point t is its rows 5000 t … 5000 t + 4999. -/
theorem blk2_2_apply (c : Dev nD) (t : Fin cfg2.N) (y : S5000x128.Idx) (k : S100000x128.Idx)
    (hk0 : (k 0).val = 5000 * t.val + (y 0).val) (hk1 : (k 1).val = (y 1).val) :
    (iblk2 V c 2 t : Vec Ideal S5000x128 .f32) y = (V c main_arg3 : S100000x128.Idx → Elt Ideal .f32) k := by
  obtain ⟨-, -, -, -, e0, e1, -⟩ := idx2 t
  unfold iblk2
  rw [View.read_apply]
  show V c main_arg3 _ = V c main_arg3 _
  refine congrArg (V c main_arg3) ?_
  funext a; apply Fin.ext
  match a with
  | ⟨0, _⟩ => show win2_2.index t (0 : Fin 2) * 5000 + 1 * (y 0).val = (k 0).val; rw [e0, hk0]; omega
  | ⟨1, _⟩ => show win2_2.index t (1 : Fin 2) * 128 + 1 * (y 1).val = (k 1).val; rw [e1, hk1]; omega

/-- One entry of what a point computes, over any three staged blocks that are the stated rows of three arrays. -/
theorem point2 (x0 x2 : Vec Ideal S5000x128 .f32) (x1 : Vec Ideal S1x128 .f32)
    (A P : FVec Ideal S100000x128 .f32) (B : FVec Ideal S1x128 .f32)
    (y : S5000x128.Idx) (k : S100000x128.Idx) (p : Fin 5000) (q : Fin 128) (n : Fin 100000)
    (hy : y = ix2 p q) (hk : k = ix2 n q)
    (h0 : x0 y = A k) (h1 : ∀ z, x1 z = B z) (h2 : x2 y = P k) :
    k2_pay1 x0 x1 x2 y = Spec.addBias A B P k := by
  subst hy hk
  rw [addBias_apply, pay2_apply, h0, h2, h1]

/-- Entry y of point t's block of the output sits at row 5000 t + y₀ and column y₁ of the array. -/
theorem emb2_3 (t : Fin cfg2.N) (y : S5000x128.Idx) (n : Fin 100000) (hn : n.val = 5000 * t.val + (y 0).val) :
    (((cfg2.win 3).blk t).view.emb y : S100000x128.Idx) = ix2 n (y 1) := by
  obtain ⟨-, -, -, -, -, -, e0, e1⟩ := idx2 t
  funext a; apply Fin.ext
  match a with
  | ⟨0, _⟩ => show win2_3.index t (0 : Fin 2) * 5000 + 1 * (y 0).val = n.val; rw [e0, hn]; omega
  | ⟨1, _⟩ => show win2_3.index t (1 : Fin 2) * 128 + 1 * (y 1).val = (y 1).val; rw [e1]; omega

set_option maxHeartbeats 1000000 in
/-- What point t writes back is block t of `(a + row) + p` of the arrays the region finds. -/
theorem flushed2_eq (c : Dev nD) (t : Fin cfg2.N) :
    (dat2 V c).flushed 3 t = ((cfg2.win 3).blk t).view.read (Elt Ideal)
      (Spec.addBias (V c main_v59) (V c main_v60) (V c main_arg3)) := by
  show (cfg2.win 3).cut (grid2.coords t) ((dat2 V c).after 3 t) = _
  rw [after2_3]
  unfold out2_3
  rw [View.canon_unit_zero hz]
  simp only [View.ld_unit_zero (S := S5000x128) hz, View.ld_unit_zero (S := S1x128) hz]
  have hN : cfg2.N = 20 := N_2
  funext j
  show k2_pay1 (iblk2 V c 0 t) (iblk2 V c 1 t) (iblk2 V c 2 t) j
    = Spec.addBias (V c main_v59) (V c main_v60) (V c main_arg3) (((cfg2.win 3).blk t).view.emb j)
  have hj0 : (j 0).val < 5000 := (j 0).isLt
  have hn : 5000 * t.val + (j 0).val < 100000 := by have := t.isLt; omega
  have hemb := emb2_3 t j ⟨5000 * t.val + (j 0).val, hn⟩ rfl
  exact point2 (iblk2 V c 0 t) (iblk2 V c 2 t) (iblk2 V c 1 t) (V c main_v59) (V c main_arg3) (V c main_v60) j
    (((cfg2.win 3).blk t).view.emb j) (j 0) (j 1) ⟨5000 * t.val + (j 0).val, hn⟩ (eq_ix2 (n0 := 5000) (n1 := 128) j) hemb
    (blk2_0_apply V c t j _ (by rw [hemb]) (by rw [hemb]))
    (fun z => blk2_1_apply V c t z)
    (blk2_2_apply V c t j _ (by rw [hemb]) (by rw [hemb]))

/-- An index of the output is in point t's block iff each coordinate is in the block's range on its axis. -/
theorem mem_blk2 (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v61).slice (win2_3.rect t)).set ↔ _
  rw [View.set_slice_whole, Rect.mem_set_unit]
  exact Iff.rfl

/-- Every row of the output lies in the block of the point numbered by the row divided by 5000. -/
theorem cover2 (i : S100000x128.Idx) : ∃ t : Fin cfg2.N, (cfg2.win 3).flush t = true ∧ i ∈ ((cfg2.win 3).blk t).view.set := by
  have hN : cfg2.N = 20 := N_2
  have hi0 : (i 0).val < 100000 := (i 0).isLt
  have hi1 : (i 1).val < 128 := (i 1).isLt
  let t : Fin cfg2.N := ⟨(i 0).val / 5000, by rw [hN]; omega⟩
  refine ⟨t, flush2_3 t, ?_⟩
  rw [mem_blk2]
  obtain ⟨-, -, -, -, -, -, e0, e1⟩ := idx2 t
  have ht : t.val = (i 0).val / 5000 := rfl
  intro a
  match a with
  | ⟨0, _⟩ => show win2_3.index t (0 : Fin 2) * 5000 ≤ (i 0).val ∧ (i 0).val < win2_3.index t (0 : Fin 2) * 5000 + 5000; rw [e0, ht]; omega
  | ⟨1, _⟩ => show win2_3.index t (1 : Fin 2) * 128 ≤ (i 1).val ∧ (i 1).val < win2_3.index t (1 : Fin 2) * 128 + 128; rw [e1]; omega

/-- The output array after the region: `(a + row) + p` of the three arrays the region finds. -/
theorem final2 (c : Dev nD) :
    (dat2 V c).arrAt 3 cfg2.N = Spec.addBias (V c main_v59) (V c main_v60) (V c main_arg3) :=
  (dat2 V c).arrAt_eq_of_cover 3 _ (fun t _ => flushed2_eq V c t) cover2

end Cert.KernelIdeal.Hand

end
-- ==== Proof.KernelValue.lean ====
/-
  The idealized kernel's result array as the specification's function of the arguments.

  The buffer contents at the eight segment boundaries are read one boundary at a time.  The first three stretches of
  host operations leave the pairs' sources and destinations, the degrees' inverse square roots and the pairs' weights;
  the first region leaves `x · W1ᵀ`; the next stretch aggregates it and makes the first bias a row; the middle region
  leaves `((· + b1) + p_first) · W2ᵀ` of that; the next stretch aggregates again and makes the second bias a row; the
  last region adds it and the last perturbation.  A buffer that a stretch or a region does not write keeps its contents,
  which carries the index lists, the weights and the arguments forward to where they are used.  Each stretch is read
  from ANY entry contents `V`: what it leaves in a buffer is one of the specification's functions of what `V` holds.
-/
import proofs.«144888_j21904333210049_1_alg».proof.Proof.Gen.KernelIdeal.Frame
import proofs.«144888_j21904333210049_1_alg».proof.Proof.Spec
import proofs.«144888_j21904333210049_1_alg».proof.Proof.Region0
import proofs.«144888_j21904333210049_1_alg».proof.Proof.Region1
import proofs.«144888_j21904333210049_1_alg».proof.Proof.Region2
import Idealize.ShloMosaic.Lib.StableHlo.Run

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL.Sem Idealize.ShloMosaic.StableHlo

/-- Each operation's result read at its own result buffer is its function of its operands' contents, and at any other
    buffer what was there: rewritten until no host operation is left. -/
macro "results_rw" : tactic =>
  `(tactic| (repeat (first
               | rw [StableHlo.nullary_result] | rw [StableHlo.unary_result] | rw [StableHlo.binary_result] | rw [StableHlo.ternary_result]
               | rw [StableHlo.reshape_result]
               | (rw [StableHlo.nullary_result_ne]; rotate_left; decide)
               | (rw [StableHlo.unary_result_ne]; rotate_left; decide)
               | (rw [StableHlo.binary_result_ne]; rotate_left; decide)
               | (rw [StableHlo.ternary_result_ne]; rotate_left; decide)
               | (rw [StableHlo.reshape_result_ne]; rotate_left; decide))))

/-! ## The host stretches, each from any entry contents -/

/-- The call that selects: the inverse square root where the degree is positive, the given zero elsewhere. -/
theorem where_of (V : Valuation τ sig (Elt Ideal)) : after hostOps0_1 V (Proc.devRef .tc main_v16)
    = Spec.dinvOf (V (Proc.devRef .tc main_v12)) (V (Proc.devRef .tc main_v15)) (V (Proc.devRef .tc main_cst_3)) := by
  dsimp only [hostOps0_1]
  after_results_simp
  simp only [TRef.toBuf, TRef.ofBuf]
  repeat rw [cast_eq]
  rfl

theorem keep01_v3 (V : Valuation τ sig (Elt Ideal)) : after hostOps0_1 V (Proc.devRef .tc main_v3) = V (Proc.devRef .tc main_v3) := by
  dsimp only [hostOps0_1]
  after_results_simp <;> rfl
theorem keep01_v6 (V : Valuation τ sig (Elt Ideal)) : after hostOps0_1 V (Proc.devRef .tc main_v6) = V (Proc.devRef .tc main_v6) := by
  dsimp only [hostOps0_1]
  after_results_simp <;> rfl

/-- The third stretch leaves the pairs' weights. -/
theorem nrm_of (V : Valuation τ sig (Elt Ideal)) : after hostOps0_2 V (Proc.devRef .tc main_v32)
    = Spec.edgeNorm (V (Proc.devRef .tc main_v16)) (V (Proc.devRef .tc main_v3)) (V (Proc.devRef .tc main_v6)) := by
  dsimp only [hostOps0_2]
  after_results_simp
  rfl

theorem keep02_v3 (V : Valuation τ sig (Elt Ideal)) : after hostOps0_2 V (Proc.devRef .tc main_v3) = V (Proc.devRef .tc main_v3) := by
  dsimp only [hostOps0_2]
  after_results_simp <;> rfl
theorem keep02_v6 (V : Valuation τ sig (Elt Ideal)) : after hostOps0_2 V (Proc.devRef .tc main_v6) = V (Proc.devRef .tc main_v6) := by
  dsimp only [hostOps0_2]
  after_results_simp <;> rfl

/-- The fourth stretch aggregates the first region's output … -/
theorem agg1_of (V : Valuation τ sig (Elt Ideal)) : after hostOps1 V (Proc.devRef .tc main_v45)
    = Spec.aggregate (V (Proc.devRef .tc main_v33)) (V (Proc.devRef .tc main_v3)) (V (Proc.devRef .tc main_v6)) (V (Proc.devRef .tc main_v32)) := by
  dsimp only [hostOps1]
  after_results_simp
  rfl

/-- … and makes the first bias a row. -/
theorem row1_of (V : Valuation τ sig (Elt Ideal)) : after hostOps1 V (Proc.devRef .tc main_v46) = Spec.biasRow (V (Proc.devRef .tc main_arg5)) := by
  dsimp only [hostOps1]
  after_results_simp
  rfl

theorem keep1_v3 (V : Valuation τ sig (Elt Ideal)) : after hostOps1 V (Proc.devRef .tc main_v3) = V (Proc.devRef .tc main_v3) := by
  dsimp only [hostOps1]
  after_results_simp <;> rfl
theorem keep1_v6 (V : Valuation τ sig (Elt Ideal)) : after hostOps1 V (Proc.devRef .tc main_v6) = V (Proc.devRef .tc main_v6) := by
  dsimp only [hostOps1]
  after_results_simp <;> rfl
theorem keep1_v32 (V : Valuation τ sig (Elt Ideal)) : after hostOps1 V (Proc.devRef .tc main_v32) = V (Proc.devRef .tc main_v32) := by
  dsimp only [hostOps1]
  after_results_simp <;> rfl
theorem keep1_arg2 (V : Valuation τ sig (Elt Ideal)) : after hostOps1 V (Proc.devRef .tc main_arg2) = V (Proc.devRef .tc main_arg2) := by
  dsimp only [hostOps1]
  after_results_simp <;> rfl
theorem keep1_arg3 (V : Valuation τ sig (Elt Ideal)) : after hostOps1 V (Proc.devRef .tc main_arg3) = V (Proc.devRef .tc main_arg3) := by
  dsimp only [hostOps1]
  after_results_simp <;> rfl
theorem keep1_arg6 (V : Valuation τ sig (Elt Ideal)) : after hostOps1 V (Proc.devRef .tc main_arg6) = V (Proc.devRef .tc main_arg6) := by
  dsimp only [hostOps1]
  after_results_simp <;> rfl
theorem keep1_arg7 (V : Valuation τ sig (Elt Ideal)) : after hostOps1 V (Proc.devRef .tc main_arg7) = V (Proc.devRef .tc main_arg7) := by
  dsimp only [hostOps1]
  after_results_simp <;> rfl

/-- The sixth stretch aggregates the middle region's output … -/
theorem agg2_of (V : Valuation τ sig (Elt Ideal)) : after hostOps2 V (Proc.devRef .tc main_v59)
    = Spec.aggregate (V (Proc.devRef .tc main_v47)) (V (Proc.devRef .tc main_v3)) (V (Proc.devRef .tc main_v6)) (V (Proc.devRef .tc main_v32)) := by
  dsimp only [hostOps2]
  after_results_simp
  rfl

/-- … and makes the second bias a row. -/
theorem row2_of (V : Valuation τ sig (Elt Ideal)) : after hostOps2 V (Proc.devRef .tc main_v60) = Spec.biasRow (V (Proc.devRef .tc main_arg7)) := by
  dsimp only [hostOps2]
  after_results_simp
  rfl

theorem keep2_arg3 (V : Valuation τ sig (Elt Ideal)) : after hostOps2 V (Proc.devRef .tc main_arg3) = V (Proc.devRef .tc main_arg3) := by
  dsimp only [hostOps2]
  after_results_simp <;> rfl

variable (m : (ℓ : Loc nD τ sig) → Buf (Elt Ideal) ℓ) (ρ : Dev nD → PrngReg)

/-! ## After the first stretch: the index lists, the degree's sign and its inverse square root -/

theorem w1_src (c : Dev nD) : W1 m ρ c (Proc.devRef .tc main_v3) = Spec.srcIdx (m ((c : Thread nD τ).loc main_arg1)) := by
  dsimp only [W1, hostOps0]
  after_results_simp
  rfl

theorem w1_dst (c : Dev nD) : W1 m ρ c (Proc.devRef .tc main_v6) = Spec.dstIdx (m ((c : Thread nD τ).loc main_arg1)) := by
  dsimp only [W1, hostOps0]
  after_results_simp
  rfl

theorem w1_pos (c : Dev nD) : W1 m ρ c (Proc.devRef .tc main_v12) = Spec.degPos (Spec.degree (Spec.dstIdx (m ((c : Thread nD τ).loc main_arg1)))) := by
  dsimp only [W1, hostOps0]
  after_results_simp
  results_rw
  rfl

theorem w1_rs (c : Dev nD) : W1 m ρ c (Proc.devRef .tc main_v15) = Spec.degRsqrt (Spec.degree (Spec.dstIdx (m ((c : Thread nD τ).loc main_arg1)))) := by
  dsimp only [W1, hostOps0]
  after_results_simp
  results_rw
  rfl

theorem w1_zero (c : Dev nD) : W1 m ρ c (Proc.devRef .tc main_cst_3) = constant (F := Ideal) S_ .f32 0x00000000#32 := by
  dsimp only [W1, hostOps0]
  after_results_simp <;> rfl

/-! ## After the second and third stretches (the first region's entry) -/

theorem w2_dinv (c : Dev nD) : W2 m ρ c (Proc.devRef .tc main_v16) = Spec.dinv (m ((c : Thread nD τ).loc main_arg1)) := by
  refine (where_of (W1 m ρ c)).trans ?_
  rw [w1_pos, w1_rs, w1_zero]
  rfl

theorem w2_src (c : Dev nD) : W2 m ρ c (Proc.devRef .tc main_v3) = Spec.srcIdx (m ((c : Thread nD τ).loc main_arg1)) :=
  (keep01_v3 (W1 m ρ c)).trans (w1_src m ρ c)

theorem w2_dst (c : Dev nD) : W2 m ρ c (Proc.devRef .tc main_v6) = Spec.dstIdx (m ((c : Thread nD τ).loc main_arg1)) :=
  (keep01_v6 (W1 m ρ c)).trans (w1_dst m ρ c)

theorem w3_src (c : Dev nD) : W3 m ρ c (Proc.devRef .tc main_v3) = Spec.srcIdx (m ((c : Thread nD τ).loc main_arg1)) :=
  (keep02_v3 (W2 m ρ c)).trans (w2_src m ρ c)

theorem w3_dst (c : Dev nD) : W3 m ρ c (Proc.devRef .tc main_v6) = Spec.dstIdx (m ((c : Thread nD τ).loc main_arg1)) :=
  (keep02_v6 (W2 m ρ c)).trans (w2_dst m ρ c)

theorem w3_nrm (c : Dev nD) : W3 m ρ c (Proc.devRef .tc main_v32) = Spec.nrm (m ((c : Thread nD τ).loc main_arg1)) := by
  refine (nrm_of (W2 m ρ c)).trans ?_
  rw [w2_dinv, w2_src, w2_dst]
  rfl

theorem w3_arg0 (c : Dev nD) : W3 m ρ c (Proc.devRef .tc main_arg0) = m ((c : Thread nD τ).loc main_arg0) := by
  dsimp only [W3, W2, W1, hostOps0, hostOps0_1, hostOps0_2]
  after_results_simp <;> rfl
theorem w3_arg2 (c : Dev nD) : W3 m ρ c (Proc.devRef .tc main_arg2) = m ((c : Thread nD τ).loc main_arg2) := by
  dsimp only [W3, W2, W1, hostOps0, hostOps0_1, hostOps0_2]
  after_results_simp <;> rfl
theorem w3_arg3 (c : Dev nD) : W3 m ρ c (Proc.devRef .tc main_arg3) = m ((c : Thread nD τ).loc main_arg3) := by
  dsimp only [W3, W2, W1, hostOps0, hostOps0_1, hostOps0_2]
  after_results_simp <;> rfl
theorem w3_arg4 (c : Dev nD) : W3 m ρ c (Proc.devRef .tc main_arg4) = m ((c : Thread nD τ).loc main_arg4) := by
  dsimp only [W3, W2, W1, hostOps0, hostOps0_1, hostOps0_2]
  after_results_simp <;> rfl
theorem w3_arg5 (c : Dev nD) : W3 m ρ c (Proc.devRef .tc main_arg5) = m ((c : Thread nD τ).loc main_arg5) := by
  dsimp only [W3, W2, W1, hostOps0, hostOps0_1, hostOps0_2]
  after_results_simp <;> rfl
theorem w3_arg6 (c : Dev nD) : W3 m ρ c (Proc.devRef .tc main_arg6) = m ((c : Thread nD τ).loc main_arg6) := by
  dsimp only [W3, W2, W1, hostOps0, hostOps0_1, hostOps0_2]
  after_results_simp <;> rfl
theorem w3_arg7 (c : Dev nD) : W3 m ρ c (Proc.devRef .tc main_arg7) = m ((c : Thread nD τ).loc main_arg7) := by
  dsimp only [W3, W2, W1, hostOps0, hostOps0_1, hostOps0_2]
  after_results_simp <;> rfl

/-! ## After the first region: `x · W1ᵀ` -/

theorem w4_lin (c : Dev nD) : W4 m ρ c (Proc.devRef .tc main_v33) = Spec.linT (m ((c : Thread nD τ).loc main_arg0)) (m ((c : Thread nD τ).loc main_arg4)) :=
  ((W4_arr m ρ c 2).trans (final0 (V3 m ρ) c)).trans (congrArg₂ Spec.linT (w3_arg0 m ρ c) (w3_arg4 m ρ c))

theorem carry4_v3 (c : Dev nD) : W4 m ρ c (Proc.devRef .tc main_v3) = W3 m ρ c (Proc.devRef .tc main_v3) :=
  W4_of_ne m ρ c main_v3 (by decide)
theorem carry4_v6 (c : Dev nD) : W4 m ρ c (Proc.devRef .tc main_v6) = W3 m ρ c (Proc.devRef .tc main_v6) :=
  W4_of_ne m ρ c main_v6 (by decide)
theorem carry4_v32 (c : Dev nD) : W4 m ρ c (Proc.devRef .tc main_v32) = W3 m ρ c (Proc.devRef .tc main_v32) :=
  W4_of_ne m ρ c main_v32 (by decide)
theorem carry4_arg2 (c : Dev nD) : W4 m ρ c (Proc.devRef .tc main_arg2) = W3 m ρ c (Proc.devRef .tc main_arg2) :=
  W4_of_ne m ρ c main_arg2 (by decide)
theorem carry4_arg3 (c : Dev nD) : W4 m ρ c (Proc.devRef .tc main_arg3) = W3 m ρ c (Proc.devRef .tc main_arg3) :=
  W4_of_ne m ρ c main_arg3 (by decide)
theorem carry4_arg5 (c : Dev nD) : W4 m ρ c (Proc.devRef .tc main_arg5) = W3 m ρ c (Proc.devRef .tc main_arg5) :=
  W4_of_ne m ρ c main_arg5 (by decide)
theorem carry4_arg6 (c : Dev nD) : W4 m ρ c (Proc.devRef .tc main_arg6) = W3 m ρ c (Proc.devRef .tc main_arg6) :=
  W4_of_ne m ρ c main_arg6 (by decide)
theorem carry4_arg7 (c : Dev nD) : W4 m ρ c (Proc.devRef .tc main_arg7) = W3 m ρ c (Proc.devRef .tc main_arg7) :=
  W4_of_ne m ρ c main_arg7 (by decide)

/-! ## After the fourth stretch (the middle region's entry): the first aggregation and the first bias as a row -/

theorem w5_agg (c : Dev nD) : W5 m ρ c (Proc.devRef .tc main_v45)
    = Spec.layer (Spec.linT (m ((c : Thread nD τ).loc main_arg0)) (m ((c : Thread nD τ).loc main_arg4))) (m ((c : Thread nD τ).loc main_arg1)) := by
  refine (agg1_of (W4 m ρ c)).trans ?_
  rw [w4_lin, carry4_v3, carry4_v6, carry4_v32, w3_src, w3_dst, w3_nrm]
  rfl

theorem w5_row (c : Dev nD) : W5 m ρ c (Proc.devRef .tc main_v46) = Spec.biasRow (m ((c : Thread nD τ).loc main_arg5)) := by
  refine (row1_of (W4 m ρ c)).trans ?_
  rw [carry4_arg5, w3_arg5]

theorem carry5_v3 (c : Dev nD) : W5 m ρ c (Proc.devRef .tc main_v3) = W4 m ρ c (Proc.devRef .tc main_v3) :=
  keep1_v3 (W4 m ρ c)
theorem carry5_v6 (c : Dev nD) : W5 m ρ c (Proc.devRef .tc main_v6) = W4 m ρ c (Proc.devRef .tc main_v6) :=
  keep1_v6 (W4 m ρ c)
theorem carry5_v32 (c : Dev nD) : W5 m ρ c (Proc.devRef .tc main_v32) = W4 m ρ c (Proc.devRef .tc main_v32) :=
  keep1_v32 (W4 m ρ c)
theorem carry5_arg2 (c : Dev nD) : W5 m ρ c (Proc.devRef .tc main_arg2) = W4 m ρ c (Proc.devRef .tc main_arg2) :=
  keep1_arg2 (W4 m ρ c)
theorem carry5_arg3 (c : Dev nD) : W5 m ρ c (Proc.devRef .tc main_arg3) = W4 m ρ c (Proc.devRef .tc main_arg3) :=
  keep1_arg3 (W4 m ρ c)
theorem carry5_arg6 (c : Dev nD) : W5 m ρ c (Proc.devRef .tc main_arg6) = W4 m ρ c (Proc.devRef .tc main_arg6) :=
  keep1_arg6 (W4 m ρ c)
theorem carry5_arg7 (c : Dev nD) : W5 m ρ c (Proc.devRef .tc main_arg7) = W4 m ρ c (Proc.devRef .tc main_arg7) :=
  keep1_arg7 (W4 m ρ c)

/-! ## After the middle region: `((· + b1) + p_first) · W2ᵀ` of the first aggregation -/

theorem w6_lin (c : Dev nD) : W6 m ρ c (Proc.devRef .tc main_v47)
    = Spec.linT (Spec.addBias (Spec.layer (Spec.linT (m ((c : Thread nD τ).loc main_arg0)) (m ((c : Thread nD τ).loc main_arg4))) (m ((c : Thread nD τ).loc main_arg1)))
        (Spec.biasRow (m ((c : Thread nD τ).loc main_arg5))) (m ((c : Thread nD τ).loc main_arg2))) (m ((c : Thread nD τ).loc main_arg6)) := by
  refine ((W6_arr m ρ c 4).trans (final1 (V5 m ρ) c)).trans ?_
  show Spec.linT (Spec.addBias (W5 m ρ c (Proc.devRef .tc main_v45)) (W5 m ρ c (Proc.devRef .tc main_v46)) (W5 m ρ c (Proc.devRef .tc main_arg2)))
    (W5 m ρ c (Proc.devRef .tc main_arg6)) = _
  rw [w5_agg, w5_row, carry5_arg2, carry4_arg2, w3_arg2, carry5_arg6, carry4_arg6, w3_arg6]

theorem carry6_v3 (c : Dev nD) : W6 m ρ c (Proc.devRef .tc main_v3) = W5 m ρ c (Proc.devRef .tc main_v3) :=
  W6_of_ne m ρ c main_v3 (by decide)
theorem carry6_v6 (c : Dev nD) : W6 m ρ c (Proc.devRef .tc main_v6) = W5 m ρ c (Proc.devRef .tc main_v6) :=
  W6_of_ne m ρ c main_v6 (by decide)
theorem carry6_v32 (c : Dev nD) : W6 m ρ c (Proc.devRef .tc main_v32) = W5 m ρ c (Proc.devRef .tc main_v32) :=
  W6_of_ne m ρ c main_v32 (by decide)
theorem carry6_arg3 (c : Dev nD) : W6 m ρ c (Proc.devRef .tc main_arg3) = W5 m ρ c (Proc.devRef .tc main_arg3) :=
  W6_of_ne m ρ c main_arg3 (by decide)
theorem carry6_arg7 (c : Dev nD) : W6 m ρ c (Proc.devRef .tc main_arg7) = W5 m ρ c (Proc.devRef .tc main_arg7) :=
  W6_of_ne m ρ c main_arg7 (by decide)

theorem w6_src (c : Dev nD) : W6 m ρ c (Proc.devRef .tc main_v3) = Spec.srcIdx (m ((c : Thread nD τ).loc main_arg1)) := by
  rw [carry6_v3, carry5_v3, carry4_v3, w3_src]

theorem w6_dst (c : Dev nD) : W6 m ρ c (Proc.devRef .tc main_v6) = Spec.dstIdx (m ((c : Thread nD τ).loc main_arg1)) := by
  rw [carry6_v6, carry5_v6, carry4_v6, w3_dst]

theorem w6_nrm (c : Dev nD) : W6 m ρ c (Proc.devRef .tc main_v32) = Spec.nrm (m ((c : Thread nD τ).loc main_arg1)) := by
  rw [carry6_v32, carry5_v32, carry4_v32, w3_nrm]

/-! ## After the sixth stretch and the last region: the result -/

theorem w7_agg (c : Dev nD) : W7 m ρ c (Proc.devRef .tc main_v59)
    = Spec.layer (Spec.linT (Spec.addBias (Spec.layer (Spec.linT (m ((c : Thread nD τ).loc main_arg0)) (m ((c : Thread nD τ).loc main_arg4))) (m ((c : Thread nD τ).loc main_arg1)))
        (Spec.biasRow (m ((c : Thread nD τ).loc main_arg5))) (m ((c : Thread nD τ).loc main_arg2))) (m ((c : Thread nD τ).loc main_arg6))) (m ((c : Thread nD τ).loc main_arg1)) := by
  refine (agg2_of (W6 m ρ c)).trans ?_
  rw [w6_lin, w6_src, w6_dst, w6_nrm]
  rfl

theorem w7_row (c : Dev nD) : W7 m ρ c (Proc.devRef .tc main_v60) = Spec.biasRow (m ((c : Thread nD τ).loc main_arg7)) := by
  refine (row2_of (W6 m ρ c)).trans ?_
  rw [carry6_arg7, carry5_arg7, carry4_arg7, w3_arg7]

theorem w7_arg3 (c : Dev nD) : W7 m ρ c (Proc.devRef .tc main_arg3) = m ((c : Thread nD τ).loc main_arg3) := by
  refine (keep2_arg3 (W6 m ρ c)).trans ?_
  rw [carry6_arg3, carry5_arg3, carry4_arg3, w3_arg3]

/-- The result array is the specification's output of the eight arguments. -/
theorem w8_out (c : Dev nD) : W8 m ρ c (Proc.devRef .tc main_v61)
    = Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) := by
  refine ((W8_arr m ρ c 3).trans (final2 (V7 m ρ) c)).trans ?_
  show Spec.addBias (W7 m ρ c (Proc.devRef .tc main_v59)) (W7 m ρ c (Proc.devRef .tc main_v60)) (W7 m ρ c (Proc.devRef .tc main_arg3)) = _
  rw [w7_agg, w7_row, w7_arg3]
  rfl

end Cert.KernelIdeal.Hand

end
-- ==== Proof.RefValue.lean ====
/-
  The idealized reference's result array as the specification's function of the arguments.

  The reference is one line of 86 host operations; its run leaves every buffer at the fold of the operations over the
  launch contents.  The line is cut into eight consecutive stretches — the index lists and the degrees; the selecting
  call; the pairs' weights; the first product; the first aggregation; the bias, the perturbation and the second product;
  the second aggregation; the last bias and perturbation — and each stretch is read from ANY entry contents `V`: what
  it leaves in a buffer is one of the specification's functions of what `V` holds.  The reference makes a bias a row by
  repeating the vector into a one-row matrix, the specification by reshaping it: one function.
-/
import proofs.«144888_j21904333210049_1_alg».proof.Proof.RefRun
import proofs.«144888_j21904333210049_1_alg».proof.Proof.Spec
import Idealize.ShloMosaic.Lib.Pipeline.Value
import Idealize.ShloMosaic.Lib.ValueIdx

set_option maxRecDepth 16384
set_option maxHeartbeats 4000000

noncomputable section

namespace Cert.ReferenceIdeal.RefValue

open Cert.ReferenceIdeal Cert.ReferenceIdeal.Gen Cert.ReferenceIdeal.ValueP
open Idealize.ShloMosaic Idealize.ShloMosaic.TcCoe Idealize.ShloMosaic.ValueIdx
open Idealize.SL.Sem Idealize.ShloMosaic.StableHlo
open Cert.KernelIdeal.Spec

/-- Each operation's result read at its own result buffer is its function of its operands' contents, and at any other
    buffer what was there: rewritten until no host operation is left. -/
macro "results_rw" : tactic =>
  `(tactic| (repeat (first
               | rw [StableHlo.nullary_result] | rw [StableHlo.unary_result] | rw [StableHlo.binary_result] | rw [StableHlo.ternary_result]
               | rw [StableHlo.reshape_result]
               | (rw [StableHlo.nullary_result_ne]; rotate_left; decide)
               | (rw [StableHlo.unary_result_ne]; rotate_left; decide)
               | (rw [StableHlo.binary_result_ne]; rotate_left; decide)
               | (rw [StableHlo.ternary_result_ne]; rotate_left; decide)
               | (rw [StableHlo.reshape_result_ne]; rotate_left; decide))))

/-! ## The eight stretches of the line -/

abbrev opsA : List (HloOp τ sig (Elt Ideal)) := (ops (F := Ideal)).take 21
abbrev opsB : List (HloOp τ sig (Elt Ideal)) := ((ops (F := Ideal)).drop 21).take 3
abbrev opsC : List (HloOp τ sig (Elt Ideal)) := ((ops (F := Ideal)).drop 24).take 20
abbrev opsD : List (HloOp τ sig (Elt Ideal)) := ((ops (F := Ideal)).drop 44).take 2
abbrev opsE : List (HloOp τ sig (Elt Ideal)) := ((ops (F := Ideal)).drop 46).take 15
abbrev opsF : List (HloOp τ sig (Elt Ideal)) := ((ops (F := Ideal)).drop 61).take 6
abbrev opsG : List (HloOp τ sig (Elt Ideal)) := ((ops (F := Ideal)).drop 67).take 15
abbrev opsH : List (HloOp τ sig (Elt Ideal)) := (ops (F := Ideal)).drop 82

/-- Two lines run one after the other fold as their concatenation. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

/-- The line is its eight stretches in order. -/
theorem ops_split : (ops (F := Ideal)) = opsA ++ (opsB ++ (opsC ++ (opsD ++ (opsE ++ (opsF ++ (opsG ++ opsH)))))) := by
  dsimp only [opsA, opsB, opsC, opsD, opsE, opsF, opsG, opsH, ops]
  simp only [List.drop_succ_cons, List.drop_zero, List.take_succ_cons, List.take_zero, List.cons_append, List.nil_append]

/-- The bias vector repeated into a one-row matrix is the vector reshaped into one row. -/
theorem bcastRow_eq (b : FVec Ideal S128 .f32) (h : S128.BroadcastsInDim S1x128 (![1] : Fin 1 → Fin S1x128.rank)) :
    broadcastInDim S1x128 ![1] h b = biasRow b := by
  funext i
  unfold biasRow
  rw [broadcastInDim_apply ![1] h b i (ix1 (i 1)) (fun a => by match a with | ⟨0, _⟩ => rfl)]
  refine (shapeCast_apply b _ i (ix1 (i 1)) ?_).symm
  rw [Shape.rowMajor_val_one, Shape.rowMajor_val_two]
  have h0 : (i 0).val < 1 := (i 0).isLt
  show (i 1).val = (i 0).val * 128 + (i 1).val
  omega

/-! ## The stretches, each from any entry contents -/

/-- The call that selects: the inverse square root where the degree is positive, the given zero elsewhere. -/
theorem where_of (V : Valuation τ sig (Elt Ideal)) : after opsB V (Proc.devRef .tc main_v16)
    = dinvOf (V (Proc.devRef .tc main_v12)) (V (Proc.devRef .tc main_v15)) (V (Proc.devRef .tc main_cst_3)) := by
  dsimp only [opsB, ops]
  simp only [List.drop_succ_cons, List.drop_zero, List.take_succ_cons, List.take_zero]
  after_results_simp
  simp only [TRef.toBuf, TRef.ofBuf]
  repeat rw [cast_eq]
  rfl

theorem keepB_v3 (V : Valuation τ sig (Elt Ideal)) : after opsB V (Proc.devRef .tc main_v3) = V (Proc.devRef .tc main_v3) := by
  dsimp only [opsB, ops]
  simp only [List.drop_succ_cons, List.drop_zero, List.take_succ_cons, List.take_zero]
  after_results_simp <;> rfl
theorem keepB_v6 (V : Valuation τ sig (Elt Ideal)) : after opsB V (Proc.devRef .tc main_v6) = V (Proc.devRef .tc main_v6) := by
  dsimp only [opsB, ops]
  simp only [List.drop_succ_cons, List.drop_zero, List.take_succ_cons, List.take_zero]
  after_results_simp <;> rfl

/-- The pairs' weights. -/
theorem nrm_of (V : Valuation τ sig (Elt Ideal)) : after opsC V (Proc.devRef .tc main_v32)
    = edgeNorm (V (Proc.devRef .tc main_v16)) (V (Proc.devRef .tc main_v3)) (V (Proc.devRef .tc main_v6)) := by
  dsimp only [opsC, ops]
  simp only [List.drop_succ_cons, List.drop_zero, List.take_succ_cons, List.take_zero]
  after_results_simp
  rfl

theorem keepC_v3 (V : Valuation τ sig (Elt Ideal)) : after opsC V (Proc.devRef .tc main_v3) = V (Proc.devRef .tc main_v3) := by
  dsimp only [opsC, ops]
  simp only [List.drop_succ_cons, List.drop_zero, List.take_succ_cons, List.take_zero]
  after_results_simp <;> rfl
theorem keepC_v6 (V : Valuation τ sig (Elt Ideal)) : after opsC V (Proc.devRef .tc main_v6) = V (Proc.devRef .tc main_v6) := by
  dsimp only [opsC, ops]
  simp only [List.drop_succ_cons, List.drop_zero, List.take_succ_cons, List.take_zero]
  after_results_simp <;> rfl

/-- The first product. -/
theorem lin1_of (V : Valuation τ sig (Elt Ideal)) : after opsD V (Proc.devRef .tc main_v34)
    = linT (V (Proc.devRef .tc main_arg0)) (V (Proc.devRef .tc main_arg4)) := by
  dsimp only [opsD, ops]
  simp only [List.drop_succ_cons, List.drop_zero, List.take_succ_cons, List.take_zero]
  after_results_simp
  rfl

theorem keepD_v3 (V : Valuation τ sig (Elt Ideal)) : after opsD V (Proc.devRef .tc main_v3) = V (Proc.devRef .tc main_v3) := by
  dsimp only [opsD, ops]
  simp only [List.drop_succ_cons, List.drop_zero, List.take_succ_cons, List.take_zero]
  after_results_simp <;> rfl
theorem keepD_v6 (V : Valuation τ sig (Elt Ideal)) : after opsD V (Proc.devRef .tc main_v6) = V (Proc.devRef .tc main_v6) := by
  dsimp only [opsD, ops]
  simp only [List.drop_succ_cons, List.drop_zero, List.take_succ_cons, List.take_zero]
  after_results_simp <;> rfl
theorem keepD_v32 (V : Valuation τ sig (Elt Ideal)) : after opsD V (Proc.devRef .tc main_v32) = V (Proc.devRef .tc main_v32) := by
  dsimp only [opsD, ops]
  simp only [List.drop_succ_cons, List.drop_zero, List.take_succ_cons, List.take_zero]
  after_results_simp <;> rfl

/-- The first aggregation. -/
theorem agg1_of (V : Valuation τ sig (Elt Ideal)) : after opsE V (Proc.devRef .tc main_v46)
    = aggregate (V (Proc.devRef .tc main_v34)) (V (Proc.devRef .tc main_v3)) (V (Proc.devRef .tc main_v6)) (V (Proc.devRef .tc main_v32)) := by
  dsimp only [opsE, ops]
  simp only [List.drop_succ_cons, List.drop_zero, List.take_succ_cons, List.take_zero]
  after_results_simp
  rfl

theorem keepE_v3 (V : Valuation τ sig (Elt Ideal)) : after opsE V (Proc.devRef .tc main_v3) = V (Proc.devRef .tc main_v3) := by
  dsimp only [opsE, ops]
  simp only [List.drop_succ_cons, List.drop_zero, List.take_succ_cons, List.take_zero]
  after_results_simp <;> rfl
theorem keepE_v6 (V : Valuation τ sig (Elt Ideal)) : after opsE V (Proc.devRef .tc main_v6) = V (Proc.devRef .tc main_v6) := by
  dsimp only [opsE, ops]
  simp only [List.drop_succ_cons, List.drop_zero, List.take_succ_cons, List.take_zero]
  after_results_simp <;> rfl
theorem keepE_v32 (V : Valuation τ sig (Elt Ideal)) : after opsE V (Proc.devRef .tc main_v32) = V (Proc.devRef .tc main_v32) := by
  dsimp only [opsE, ops]
  simp only [List.drop_succ_cons, List.drop_zero, List.take_succ_cons, List.take_zero]
  after_results_simp <;> rfl

/-- The bias row and the perturbation added, then the second product. -/
theorem lin2_of (V : Valuation τ sig (Elt Ideal)) : after opsF V (Proc.devRef .tc main_v52)
    = linT (addBias (V (Proc.devRef .tc main_v46)) (biasRow (V (Proc.devRef .tc main_arg5))) (V (Proc.devRef .tc main_arg2))) (V (Proc.devRef .tc main_arg6)) := by
  dsimp only [opsF, ops]
  simp only [List.drop_succ_cons, List.drop_zero, List.take_succ_cons, List.take_zero]
  after_results_simp
  rw [bcastRow_eq]
  rfl

theorem keepF_v3 (V : Valuation τ sig (Elt Ideal)) : after opsF V (Proc.devRef .tc main_v3) = V (Proc.devRef .tc main_v3) := by
  dsimp only [opsF, ops]
  simp only [List.drop_succ_cons, List.drop_zero, List.take_succ_cons, List.take_zero]
  after_results_simp <;> rfl
theorem keepF_v6 (V : Valuation τ sig (Elt Ideal)) : after opsF V (Proc.devRef .tc main_v6) = V (Proc.devRef .tc main_v6) := by
  dsimp only [opsF, ops]
  simp only [List.drop_succ_cons, List.drop_zero, List.take_succ_cons, List.take_zero]
  after_results_simp <;> rfl
theorem keepF_v32 (V : Valuation τ sig (Elt Ideal)) : after opsF V (Proc.devRef .tc main_v32) = V (Proc.devRef .tc main_v32) := by
  dsimp only [opsF, ops]
  simp only [List.drop_succ_cons, List.drop_zero, List.take_succ_cons, List.take_zero]
  after_results_simp <;> rfl

/-- The second aggregation. -/
theorem agg2_of (V : Valuation τ sig (Elt Ideal)) : after opsG V (Proc.devRef .tc main_v64)
    = aggregate (V (Proc.devRef .tc main_v52)) (V (Proc.devRef .tc main_v3)) (V (Proc.devRef .tc main_v6)) (V (Proc.devRef .tc main_v32)) := by
  dsimp only [opsG, ops]
  simp only [List.drop_succ_cons, List.drop_zero, List.take_succ_cons, List.take_zero]
  after_results_simp
  rfl

/-- The last bias row and perturbation added. -/
theorem out_of (V : Valuation τ sig (Elt Ideal)) : after opsH V (Proc.devRef .tc main_v68)
    = addBias (V (Proc.devRef .tc main_v64)) (biasRow (V (Proc.devRef .tc main_arg7))) (V (Proc.devRef .tc main_arg3)) := by
  dsimp only [opsH, ops]
  simp only [List.drop_succ_cons, List.drop_zero, List.take_succ_cons, List.take_zero]
  after_results_simp
  rw [bcastRow_eq]
  rfl

/-! ## The boundaries -/

variable (m : (ℓ : Loc nD τ sig) → Buf (Elt Ideal) ℓ) (c : Dev nD)

abbrev U0 : Valuation τ sig (Elt Ideal) := launchContents m c
abbrev U1 : Valuation τ sig (Elt Ideal) := after opsA (U0 m c)
abbrev U2 : Valuation τ sig (Elt Ideal) := after opsB (U1 m c)
abbrev U3 : Valuation τ sig (Elt Ideal) := after opsC (U2 m c)
abbrev U4 : Valuation τ sig (Elt Ideal) := after opsD (U3 m c)
abbrev U5 : Valuation τ sig (Elt Ideal) := after opsE (U4 m c)
abbrev U6 : Valuation τ sig (Elt Ideal) := after opsF (U5 m c)
abbrev U7 : Valuation τ sig (Elt Ideal) := after opsG (U6 m c)
abbrev U8 : Valuation τ sig (Elt Ideal) := after opsH (U7 m c)

/-- The fold of the whole line is the fold of its stretches in order. -/
theorem after_ops : after (ops (F := Ideal)) (launchContents m c) = U8 m c := by
  rw [ops_split]
  simp only [after_append]

theorem u1_src : U1 m c (Proc.devRef .tc main_v3) = srcIdx (m ((c.tc : Thread nD τ).loc main_arg1)) := by
  dsimp only [U1, U0, opsA, ops]
  simp only [List.drop_succ_cons, List.drop_zero, List.take_succ_cons, List.take_zero]
  after_results_simp
  rfl

theorem u1_dst : U1 m c (Proc.devRef .tc main_v6) = dstIdx (m ((c.tc : Thread nD τ).loc main_arg1)) := by
  dsimp only [U1, U0, opsA, ops]
  simp only [List.drop_succ_cons, List.drop_zero, List.take_succ_cons, List.take_zero]
  after_results_simp
  rfl

theorem u1_pos : U1 m c (Proc.devRef .tc main_v12) = degPos (degree (dstIdx (m ((c.tc : Thread nD τ).loc main_arg1)))) := by
  dsimp only [U1, U0, opsA, ops]
  simp only [List.drop_succ_cons, List.drop_zero, List.take_succ_cons, List.take_zero]
  after_results_simp
  results_rw
  rfl

theorem u1_rs : U1 m c (Proc.devRef .tc main_v15) = degRsqrt (degree (dstIdx (m ((c.tc : Thread nD τ).loc main_arg1)))) := by
  dsimp only [U1, U0, opsA, ops]
  simp only [List.drop_succ_cons, List.drop_zero, List.take_succ_cons, List.take_zero]
  after_results_simp
  results_rw
  rfl

theorem u1_zero : U1 m c (Proc.devRef .tc main_cst_3) = constant (F := Ideal) S_ .f32 0x00000000#32 := by
  dsimp only [U1, U0, opsA, ops]
  simp only [List.drop_succ_cons, List.drop_zero, List.take_succ_cons, List.take_zero]
  after_results_simp <;> rfl

theorem u2_dinv : U2 m c (Proc.devRef .tc main_v16) = dinv (m ((c.tc : Thread nD τ).loc main_arg1)) := by
  refine (where_of (U1 m c)).trans ?_
  rw [u1_pos, u1_rs, u1_zero]
  rfl

theorem u2_src : U2 m c (Proc.devRef .tc main_v3) = srcIdx (m ((c.tc : Thread nD τ).loc main_arg1)) := (keepB_v3 (U1 m c)).trans (u1_src m c)
theorem u2_dst : U2 m c (Proc.devRef .tc main_v6) = dstIdx (m ((c.tc : Thread nD τ).loc main_arg1)) := (keepB_v6 (U1 m c)).trans (u1_dst m c)
theorem u3_src : U3 m c (Proc.devRef .tc main_v3) = srcIdx (m ((c.tc : Thread nD τ).loc main_arg1)) := (keepC_v3 (U2 m c)).trans (u2_src m c)
theorem u3_dst : U3 m c (Proc.devRef .tc main_v6) = dstIdx (m ((c.tc : Thread nD τ).loc main_arg1)) := (keepC_v6 (U2 m c)).trans (u2_dst m c)

theorem u3_nrm : U3 m c (Proc.devRef .tc main_v32) = nrm (m ((c.tc : Thread nD τ).loc main_arg1)) := by
  refine (nrm_of (U2 m c)).trans ?_
  rw [u2_dinv, u2_src, u2_dst]
  rfl

theorem u3_arg0 : U3 m c (Proc.devRef .tc main_arg0) = m ((c.tc : Thread nD τ).loc main_arg0) := by
  dsimp only [U3, U2, U1, U0, opsA, opsB, opsC, ops]
  simp only [List.drop_succ_cons, List.drop_zero, List.take_succ_cons, List.take_zero]
  after_results_simp <;> rfl
theorem u3_arg4 : U3 m c (Proc.devRef .tc main_arg4) = m ((c.tc : Thread nD τ).loc main_arg4) := by
  dsimp only [U3, U2, U1, U0, opsA, opsB, opsC, ops]
  simp only [List.drop_succ_cons, List.drop_zero, List.take_succ_cons, List.take_zero]
  after_results_simp <;> rfl

theorem u4_lin : U4 m c (Proc.devRef .tc main_v34) = linT (m ((c.tc : Thread nD τ).loc main_arg0)) (m ((c.tc : Thread nD τ).loc main_arg4)) := by
  refine (lin1_of (U3 m c)).trans ?_
  rw [u3_arg0, u3_arg4]

theorem u4_src : U4 m c (Proc.devRef .tc main_v3) = srcIdx (m ((c.tc : Thread nD τ).loc main_arg1)) := (keepD_v3 (U3 m c)).trans (u3_src m c)
theorem u4_dst : U4 m c (Proc.devRef .tc main_v6) = dstIdx (m ((c.tc : Thread nD τ).loc main_arg1)) := (keepD_v6 (U3 m c)).trans (u3_dst m c)
theorem u4_nrm : U4 m c (Proc.devRef .tc main_v32) = nrm (m ((c.tc : Thread nD τ).loc main_arg1)) := (keepD_v32 (U3 m c)).trans (u3_nrm m c)

theorem u5_agg : U5 m c (Proc.devRef .tc main_v46) = layer (linT (m ((c.tc : Thread nD τ).loc main_arg0)) (m ((c.tc : Thread nD τ).loc main_arg4))) (m ((c.tc : Thread nD τ).loc main_arg1)) := by
  refine (agg1_of (U4 m c)).trans ?_
  rw [u4_lin, u4_src, u4_dst, u4_nrm]
  rfl

theorem u5_src : U5 m c (Proc.devRef .tc main_v3) = srcIdx (m ((c.tc : Thread nD τ).loc main_arg1)) := (keepE_v3 (U4 m c)).trans (u4_src m c)
theorem u5_dst : U5 m c (Proc.devRef .tc main_v6) = dstIdx (m ((c.tc : Thread nD τ).loc main_arg1)) := (keepE_v6 (U4 m c)).trans (u4_dst m c)
theorem u5_nrm : U5 m c (Proc.devRef .tc main_v32) = nrm (m ((c.tc : Thread nD τ).loc main_arg1)) := (keepE_v32 (U4 m c)).trans (u4_nrm m c)

theorem u5_arg2 : U5 m c (Proc.devRef .tc main_arg2) = m ((c.tc : Thread nD τ).loc main_arg2) := by
  dsimp only [U5, U4, U3, U2, U1, U0, opsA, opsB, opsC, opsD, opsE, ops]
  simp only [List.drop_succ_cons, List.drop_zero, List.take_succ_cons, List.take_zero]
  after_results_simp <;> rfl
theorem u5_arg5 : U5 m c (Proc.devRef .tc main_arg5) = m ((c.tc : Thread nD τ).loc main_arg5) := by
  dsimp only [U5, U4, U3, U2, U1, U0, opsA, opsB, opsC, opsD, opsE, ops]
  simp only [List.drop_succ_cons, List.drop_zero, List.take_succ_cons, List.take_zero]
  after_results_simp <;> rfl
theorem u5_arg6 : U5 m c (Proc.devRef .tc main_arg6) = m ((c.tc : Thread nD τ).loc main_arg6) := by
  dsimp only [U5, U4, U3, U2, U1, U0, opsA, opsB, opsC, opsD, opsE, ops]
  simp only [List.drop_succ_cons, List.drop_zero, List.take_succ_cons, List.take_zero]
  after_results_simp <;> rfl

theorem u6_lin : U6 m c (Proc.devRef .tc main_v52)
    = linT (addBias (layer (linT (m ((c.tc : Thread nD τ).loc main_arg0)) (m ((c.tc : Thread nD τ).loc main_arg4))) (m ((c.tc : Thread nD τ).loc main_arg1))) (biasRow (m ((c.tc : Thread nD τ).loc main_arg5))) (m ((c.tc : Thread nD τ).loc main_arg2)))
        (m ((c.tc : Thread nD τ).loc main_arg6)) := by
  refine (lin2_of (U5 m c)).trans ?_
  rw [u5_agg, u5_arg5, u5_arg2, u5_arg6]

theorem u6_src : U6 m c (Proc.devRef .tc main_v3) = srcIdx (m ((c.tc : Thread nD τ).loc main_arg1)) := (keepF_v3 (U5 m c)).trans (u5_src m c)
theorem u6_dst : U6 m c (Proc.devRef .tc main_v6) = dstIdx (m ((c.tc : Thread nD τ).loc main_arg1)) := (keepF_v6 (U5 m c)).trans (u5_dst m c)
theorem u6_nrm : U6 m c (Proc.devRef .tc main_v32) = nrm (m ((c.tc : Thread nD τ).loc main_arg1)) := (keepF_v32 (U5 m c)).trans (u5_nrm m c)

theorem u7_agg : U7 m c (Proc.devRef .tc main_v64)
    = layer (linT (addBias (layer (linT (m ((c.tc : Thread nD τ).loc main_arg0)) (m ((c.tc : Thread nD τ).loc main_arg4))) (m ((c.tc : Thread nD τ).loc main_arg1))) (biasRow (m ((c.tc : Thread nD τ).loc main_arg5))) (m ((c.tc : Thread nD τ).loc main_arg2)))
        (m ((c.tc : Thread nD τ).loc main_arg6))) (m ((c.tc : Thread nD τ).loc main_arg1)) := by
  refine (agg2_of (U6 m c)).trans ?_
  rw [u6_lin, u6_src, u6_dst, u6_nrm]
  rfl

theorem u7_arg3 : U7 m c (Proc.devRef .tc main_arg3) = m ((c.tc : Thread nD τ).loc main_arg3) := by
  dsimp only [U7, U6, U5, U4, U3, U2, U1, U0, opsA, opsB, opsC, opsD, opsE, opsF, opsG, ops]
  simp only [List.drop_succ_cons, List.drop_zero, List.take_succ_cons, List.take_zero]
  after_results_simp <;> rfl
theorem u7_arg7 : U7 m c (Proc.devRef .tc main_arg7) = m ((c.tc : Thread nD τ).loc main_arg7) := by
  dsimp only [U7, U6, U5, U4, U3, U2, U1, U0, opsA, opsB, opsC, opsD, opsE, opsF, opsG, ops]
  simp only [List.drop_succ_cons, List.drop_zero, List.take_succ_cons, List.take_zero]
  after_results_simp <;> rfl

/-- The reference's result array is the specification's output of the eight arguments. -/
theorem ref_out : after (ops (F := Ideal)) (launchContents m c) (Proc.devRef .tc main_v68)
    = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) := by
  rw [after_ops]
  refine (out_of (U7 m c)).trans ?_
  rw [u7_agg, u7_arg7, u7_arg3]
  rfl

/-! ## The arguments end as launched -/

theorem kept_arg0 : after (ops (F := Ideal)) (launchContents m c) (Proc.devRef .tc main_arg0) = m ((c.tc : Thread nD τ).loc main_arg0) := by
  dsimp only [ops]
  after_results_simp <;> rfl
theorem kept_arg1 : after (ops (F := Ideal)) (launchContents m c) (Proc.devRef .tc main_arg1) = m ((c.tc : Thread nD τ).loc main_arg1) := by
  dsimp only [ops]
  after_results_simp <;> rfl
theorem kept_arg2 : after (ops (F := Ideal)) (launchContents m c) (Proc.devRef .tc main_arg2) = m ((c.tc : Thread nD τ).loc main_arg2) := by
  dsimp only [ops]
  after_results_simp <;> rfl
theorem kept_arg3 : after (ops (F := Ideal)) (launchContents m c) (Proc.devRef .tc main_arg3) = m ((c.tc : Thread nD τ).loc main_arg3) := by
  dsimp only [ops]
  after_results_simp <;> rfl
theorem kept_arg4 : after (ops (F := Ideal)) (launchContents m c) (Proc.devRef .tc main_arg4) = m ((c.tc : Thread nD τ).loc main_arg4) := by
  dsimp only [ops]
  after_results_simp <;> rfl
theorem kept_arg5 : after (ops (F := Ideal)) (launchContents m c) (Proc.devRef .tc main_arg5) = m ((c.tc : Thread nD τ).loc main_arg5) := by
  dsimp only [ops]
  after_results_simp <;> rfl
theorem kept_arg6 : after (ops (F := Ideal)) (launchContents m c) (Proc.devRef .tc main_arg6) = m ((c.tc : Thread nD τ).loc main_arg6) := by
  dsimp only [ops]
  after_results_simp <;> rfl
theorem kept_arg7 : after (ops (F := Ideal)) (launchContents m c) (Proc.devRef .tc main_arg7) = m ((c.tc : Thread nD τ).loc main_arg7) := by
  dsimp only [ops]
  after_results_simp <;> rfl

end Cert.ReferenceIdeal.RefValue

end
-- ==== Proof.lean ====
/-
  The certificate: the Pallas kernel of a two-layer graph convolution against its jnp reference, over the extended reals.

  Both programs compute, from the same host code, the pairs' index lists and the symmetric degree weights, and then
  `A (((A (x · W1ᵀ) + b1) + p_first) · W2ᵀ) + b2 + p_last` with A the weighted aggregation over the pairs.  The kernel
  runs the two matrix products and the bias-and-perturbation adds in three grid regions of 20 row blocks each — the
  second region fusing the add into the product's input —, the reference as whole-array host operations.  At the exact
  instance a change of float format is the identity and a product accumulated from zero is the plain sum of products,
  so each region's output array is the reference's operations of the arrays the region finds, and the two results are
  one function of the arguments: the specification's `out`.  No algebraic law beyond that is used, so the precondition
  is not opened.  The ideal pass rewrote nothing, so `preserves` is trivial; the kernels' frames are the generated ones,
  the reference's frame is its run with the result dropped.
-/
import proofs.«144888_j21904333210049_1_alg».proof.Defs
import proofs.«144888_j21904333210049_1_alg».proof.Proof.Gen.Kernel
import proofs.«144888_j21904333210049_1_alg».proof.Proof.Gen.Kernel.Frame
import proofs.«144888_j21904333210049_1_alg».proof.Proof.Gen.KernelIdeal
import proofs.«144888_j21904333210049_1_alg».proof.Proof.Gen.KernelIdeal.Frame
import proofs.«144888_j21904333210049_1_alg».proof.Proof.Gen.ReferenceIdeal
import proofs.«144888_j21904333210049_1_alg».proof.Proof.Gen.Pre_finite_inputs
import proofs.«144888_j21904333210049_1_alg».proof.Proof.KernelRun
import proofs.«144888_j21904333210049_1_alg».proof.Proof.KernelValue
import proofs.«144888_j21904333210049_1_alg».proof.Proof.RefRun
import proofs.«144888_j21904333210049_1_alg».proof.Proof.RefValue

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run leaves every buffer at the fold of its line; at an argument the fold is the launch contents. -/
theorem frame_ri : Cert.frame_ReferenceIdeal := fun m ρ _ =>
  (θ_run Cert.ReferenceIdeal.defs _ _).mono (fun _ h c =>
    ⟨(h c Cert.ReferenceIdeal.main_arg0).trans (Cert.ReferenceIdeal.RefValue.kept_arg0 m c),
     (h c Cert.ReferenceIdeal.main_arg1).trans (Cert.ReferenceIdeal.RefValue.kept_arg1 m c),
     (h c Cert.ReferenceIdeal.main_arg2).trans (Cert.ReferenceIdeal.RefValue.kept_arg2 m c),
     (h c Cert.ReferenceIdeal.main_arg3).trans (Cert.ReferenceIdeal.RefValue.kept_arg3 m c),
     (h c Cert.ReferenceIdeal.main_arg4).trans (Cert.ReferenceIdeal.RefValue.kept_arg4 m c),
     (h c Cert.ReferenceIdeal.main_arg5).trans (Cert.ReferenceIdeal.RefValue.kept_arg5 m c),
     (h c Cert.ReferenceIdeal.main_arg6).trans (Cert.ReferenceIdeal.RefValue.kept_arg6 m c),
     (h c Cert.ReferenceIdeal.main_arg7).trans (Cert.ReferenceIdeal.RefValue.kept_arg7 m c)⟩)
    (Cert.ReferenceIdeal.ValueP.run (F := Ideal) m ρ)

theorem preserves : Cert.preserves_Kernel_KernelIdeal := trivial

/-- Both results are the specification's output of the arguments, and the memories agree on the arguments. -/
theorem algebraic : Cert.algebraic_KernelIdeal_ReferenceIdeal := by
  intro m ρ m' ρ' _ hagree
  refine ⟨fun c => Cert.KernelIdeal.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Hand.w8_out m ρ c), (h c).2⟩)
      (Cert.KernelIdeal.Hand.run_named (F := Ideal) m ρ)
  · refine (θ_run Cert.ReferenceIdeal.defs _ _).mono (fun _ h c => ?_) (Cert.ReferenceIdeal.ValueP.run (F := Ideal) m' ρ')
    refine ⟨(h c Cert.ReferenceIdeal.main_v68).trans ?_,
     (h c Cert.ReferenceIdeal.main_arg0).trans (Cert.ReferenceIdeal.RefValue.kept_arg0 m' c),
     (h c Cert.ReferenceIdeal.main_arg1).trans (Cert.ReferenceIdeal.RefValue.kept_arg1 m' c),
     (h c Cert.ReferenceIdeal.main_arg2).trans (Cert.ReferenceIdeal.RefValue.kept_arg2 m' c),
     (h c Cert.ReferenceIdeal.main_arg3).trans (Cert.ReferenceIdeal.RefValue.kept_arg3 m' c),
     (h c Cert.ReferenceIdeal.main_arg4).trans (Cert.ReferenceIdeal.RefValue.kept_arg4 m' c),
     (h c Cert.ReferenceIdeal.main_arg5).trans (Cert.ReferenceIdeal.RefValue.kept_arg5 m' c),
     (h c Cert.ReferenceIdeal.main_arg6).trans (Cert.ReferenceIdeal.RefValue.kept_arg6 m' c),
     (h c Cert.ReferenceIdeal.main_arg7).trans (Cert.ReferenceIdeal.RefValue.kept_arg7 m' c)⟩
    obtain ⟨a0, a1, a2, a3, a4, a5, a6, a7⟩ := hagree c
    rw [Cert.ReferenceIdeal.RefValue.ref_out, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
